-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4098 : Shape := ⟨2, ![4096, 4098]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4098 : S_.BroadcastsInDim S4096x4098 (![] : Fin 0 → Fin S4096x4098.rank)
  reducesTo_S4096x4098_S_d0_1 : S4096x4098.ReducesTo [0, 1] S_

variable [Facts]

def fn {F : FTy → Type} [FloatOps F] (main_arg0 : FVec F S8192x4096 .f32) (main_arg1 : FVec F S4096x4098 .f32) (main_arg2 : FVec F S4096x4098 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4098 .f32 := Host.absf main_arg1
  let main_cst_0 : FVec F S_ .f32 := constant S_ .f32 0x7F800000#32
  let main_v5 : FVec F S4096x4098 .f32 := broadcastInDim S4096x4098 ![] bcast_S_S4096x4098 main_cst_0
  let main_v6 : IVec S4096x4098 1 := cmpf .olt main_v4 main_v5
  let main_c_1 : IVec S_ 1 := constantI S_ 1 1#1
  let main_v7 : IVec S_ 1 := (fun x v => Host.reduce IntOp.andi x v reducesTo_S4096x4098_S_d0_1 h_S_) main_v6 main_c_1
  let main_v8 : IVec S_ 1 := andi main_v3 main_v7
  let main_v9 : FVec F S4096x4098 .f32 := Host.absf main_arg2
  let main_cst_2 : FVec F S_ .f32 := constant S_ .f32 0x7F800000#32
  let main_v10 : FVec F S4096x4098 .f32 := broadcastInDim S4096x4098 ![] bcast_S_S4096x4098 main_cst_2
  let main_v11 : IVec S4096x4098 1 := cmpf .olt main_v9 main_v10
  let main_c_3 : IVec S_ 1 := constantI S_ 1 1#1
  let main_v12 : IVec S_ 1 := (fun x v => Host.reduce IntOp.andi x v reducesTo_S4096x4098_S_d0_1 h_S_) main_v11 main_c_3
  let main_v13 : IVec S_ 1 := andi main_v8 main_v12
  main_v13
-- ==== Kernel.lean ====
abbrev S8192x4096 : Shape := ⟨2, ![8192, 4096]⟩
abbrev S4096x4098 : Shape := ⟨2, ![4096, 4098]⟩
abbrev S_ : Shape := ⟨0, ![]⟩
abbrev S4096 : Shape := ⟨1, ![4096]⟩
abbrev S4096x1 : Shape := ⟨2, ![4096, 1]⟩
abbrev S4096x4224 : Shape := ⟨2, ![4096, 4224]⟩
abbrev S4224x4096 : Shape := ⟨2, ![4224, 4096]⟩
abbrev S8192x1 : Shape := ⟨2, ![8192, 1]⟩
abbrev S8192x126 : Shape := ⟨2, ![8192, 126]⟩
abbrev S8192x4224 : Shape := ⟨2, ![8192, 4224]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 47
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4098, .f32⟩
  | .hbm, ⟨2, _⟩ => ⟨S4096x4098, .f32⟩
  | .hbm, ⟨3, _⟩ => ⟨S4096x4098, .f32⟩
  | .hbm, ⟨4, _⟩ => ⟨S4096x4098, .f32⟩
  | .hbm, ⟨5, _⟩ => ⟨S_, .f32⟩
  | .hbm, ⟨6, _⟩ => ⟨S4096x4098, .f32⟩
  | .hbm, ⟨7, _⟩ => ⟨S4096x4098, .i1⟩
  | .hbm, ⟨8, _⟩ => ⟨S_, .f32⟩
  | .hbm, ⟨9, _⟩ => ⟨S_, .f32⟩
  | .hbm, ⟨10, _⟩ => ⟨S4096x4098, .f32⟩
  | .hbm, ⟨11, _⟩ => ⟨S4096x4098, .f32⟩
  | .hbm, ⟨12, _⟩ => ⟨S4096x4098, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x4098, .f32⟩
  | .hbm, ⟨17, _⟩ => ⟨S4096x4098, .f32⟩
  | .hbm, ⟨18, _⟩ => ⟨S_, .f32⟩
  | .hbm, ⟨19, _⟩ => ⟨S4096x4098, .f32⟩
  | .hbm, ⟨20, _⟩ => ⟨S4096x4098, .i1⟩
  | .hbm, ⟨21, _⟩ => ⟨S4096x4098, .f32⟩
  | .hbm, ⟨22, _⟩ => ⟨S_, .f32⟩
  | .hbm, ⟨23, _⟩ => ⟨S4096x4098, .f32⟩
  | .hbm, ⟨24, _⟩ => ⟨S4096x4098, .i1⟩
  | .hbm, ⟨25, _⟩ => ⟨S4096x4098, .f32⟩
  | .hbm, ⟨26, _⟩ => ⟨S4096x4098, .f32⟩
  | .hbm, ⟨27, _⟩ => ⟨S4096x4098, .f32⟩
  | .hbm, ⟨28, _⟩ => ⟨S_, .i32⟩
  | .hbm, ⟨29, _⟩ => ⟨S_, .f32⟩
  | .hbm, ⟨30, _⟩ => ⟨S4096x4224, .f32⟩
  | .hbm, ⟨31, _⟩ => ⟨S_, .i32⟩
  | .hbm, ⟨32, _⟩ => ⟨S_, .f32⟩
  | .hbm, ⟨33, _⟩ => ⟨S4096x4224, .f32⟩
  | .hbm, ⟨34, _⟩ => ⟨S4224x4096, .f32⟩
  | .hbm, ⟨35, _⟩ => ⟨S4224x4096, .bf16⟩
  | .hbm, ⟨36, _⟩ => ⟨S4224x4096, .f32⟩
  | .hbm, ⟨37, _⟩ => ⟨S4224x4096, .bf16⟩
  | .hbm, ⟨38, _⟩ => ⟨S_, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S_, .f32⟩
  | .hbm, ⟨43, _⟩ => ⟨S8192x126, .f32⟩
  | .hbm, ⟨44, _⟩ => ⟨S8192x4224, .f32⟩
  | .hbm, ⟨45, _⟩ => ⟨S8192x4224, .bf16⟩
  | .hbm, ⟨46, _⟩ => ⟨S8192x4096, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1408x512, .bf16⟩
  | .local _ .vmem, ⟨5, _⟩ => ⟨S1408x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call1_v0 : Ref sig .tc := ⟨.hbm, 29, rfl⟩
abbrev main_v18 : Ref sig .tc := ⟨.hbm, 30, rfl⟩
abbrev main_c_4 : Ref sig .tc := ⟨.hbm, 31, rfl⟩
abbrev main_call2_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 3], ![false, false, false]⟩

def k0_cond2 (i : grid0.Coords) : BitVec 1 :=
  let arg2 : BitVec 32 := BitVec.ofNat 32 (i 2).val
  let c2_i32 : BitVec 32 := 2#32
  let v28 : BitVec 1 := Scalar.cmpi .eq arg2 c2_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4098 : S_.BroadcastsInDim S4096x4098 (![] : Fin 0 → Fin S4096x4098.rank)
  reducesTo_S4096x4098_S4096_d1 : S4096x4098.ReducesTo [1] S4096
  h_S_ : 0 < S_.numel
  bcast_S4096_S4096x1_0 : S4096.BroadcastsInDim S4096x1 (![0] : Fin 1 → Fin S4096x1.rank)
  bcast_S4096x1_S4096x4098_0_1 : S4096x1.BroadcastsInDim S4096x4098 (![0, 1] : Fin 2 → Fin S4096x4098.rank)
  pads_S4096x4098_S4096x4224_000_01260 : S4096x4098.Pads (![0, 0] : Fin 2 → Nat) ![0, 126] ![0, 0] S4096x4224
  transposes_S4096x4224_S4224x4096_1_0 : S4096x4224.Transposes [1, 0] S4224x4096
  bitsLt_bf16_f32 : FTy.bits .bf16 < FTy.bits .f32
  bcast_S_S8192x1 : S_.BroadcastsInDim S8192x1 (![] : Fin 0 → Fin S8192x1.rank)
  bcast_S_S8192x126 : S_.BroadcastsInDim S8192x126 (![] : Fin 0 → Fin S8192x126.rank)
  concatenates_S8192x4096_S8192x1_S8192x1_S8192x126_S8192x4224_d1 : Shape.Concatenates [S8192x4096, S8192x1, S8192x1, S8192x126] S8192x4224 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1408x512_S1408x512_0_0 : ∀ a, (![0, 0] : Fin 2 → Nat) a + S1408x512.size a ≤ S1408x512.size a
  h_S1408x512 : 0 < S1408x512.numel
  shapeCasts_S1408x512_S1408x512 : S1408x512.ShapeCasts S1408x512
  dot_S1024x1408_S1408x512_S1024x512_1_0_0_1_n_n_wf : DotDims.WF S1024x1408 S1408x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1408.size a ≤ S8192x4224.size a
  hwx0_0 : ∀ i : grid0.Coords, EltTy.bits .bf16 = 32 ∨ (Rect.block (s := S8192x4224) S1024x1408.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1408x512.size a ≤ S4224x4096.size a
  hwx0_1 : ∀ i : grid0.Coords, EltTy.bits .bf16 = 32 ∨ (Rect.block (s := S4224x4096) S1408x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1408x512.size a ≤ S4224x4096.size a
  hwx0_2 : ∀ i : grid0.Coords, EltTy.bits .bf16 = 32 ∨ (Rect.block (s := S4224x4096) S1408x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x1408_S1408x512_S1024x512_1_0_0_1_n_n : DotDims S1024x1408 S1408x512 S1024x512 where
  lhsContracting := [1]
  rhsContracting := [0]
  lhsNonContracting := [0]
  rhsNonContracting := [1]
  lhsBatch := []
  rhsBatch := []
  wf := dot_S1024x1408_S1408x512_S1024x512_1_0_0_1_n_n_wf

abbrev win0_0 : Pipeline.Window sig grid0 :=
  Pipeline.Window.ofSpec (Memref.whole main_v28) S1024x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1408x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1408x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4098 : Shape := ⟨2, ![4096, 4098]⟩
abbrev S_ : Shape := ⟨0, ![]⟩
abbrev S4096 : Shape := ⟨1, ![4096]⟩
abbrev S4096x1 : Shape := ⟨2, ![4096, 1]⟩
abbrev S8192x1 : Shape := ⟨2, ![8192, 1]⟩
abbrev S8192x4098 : Shape := ⟨2, ![8192, 4098]⟩
abbrev S4098x4096 : Shape := ⟨2, ![4098, 4096]⟩

abbrev nBuf : Space → Nat
  | .hbm => 66
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4098, .f32⟩
  | .hbm, ⟨2, _⟩ => ⟨S4096x4098, .f32⟩
  | .hbm, ⟨3, _⟩ => ⟨S4096x4098, .f32⟩
  | .hbm, ⟨4, _⟩ => ⟨S4096x4098, .f32⟩
  | .hbm, ⟨5, _⟩ => ⟨S_, .f32⟩
  | .hbm, ⟨6, _⟩ => ⟨S4096x4098, .f32⟩
  | .hbm, ⟨7, _⟩ => ⟨S4096x4098, .i1⟩
  | .hbm, ⟨8, _⟩ => ⟨S_, .f32⟩
  | .hbm, ⟨9, _⟩ => ⟨S_, .f32⟩
  | .hbm, ⟨10, _⟩ => ⟨S4096x4098, .f32⟩
  | .hbm, ⟨11, _⟩ => ⟨S4096x4098, .f32⟩
  | .hbm, ⟨12, _⟩ => ⟨S4096x4098, .f32⟩
  | .hbm, ⟨13, _⟩ => ⟨S4096x4098, .f32⟩
  | .hbm, ⟨14, _⟩ => ⟨S4096x4098, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x4098, .f32⟩
  | .hbm, ⟨19, _⟩ => ⟨S4096x4098, .f32⟩
  | .hbm, ⟨20, _⟩ => ⟨S_, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x4098, .f32⟩
  | .hbm, ⟨25, _⟩ => ⟨S_, .f32⟩
  | .hbm, ⟨26, _⟩ => ⟨S8192x4098, .f32⟩
  | .hbm, ⟨27, _⟩ => ⟨S8192x4098, .f32⟩
  | .hbm, ⟨28, _⟩ => ⟨S_, .f32⟩
  | .hbm, ⟨29, _⟩ => ⟨S8192x4098, .f32⟩
  | .hbm, ⟨30, _⟩ => ⟨S8192x4098, .f32⟩
  | .hbm, ⟨31, _⟩ => ⟨S8192x4098, .f32⟩
  | .hbm, ⟨32, _⟩ => ⟨S_, .f32⟩
  | .hbm, ⟨33, _⟩ => ⟨S8192x4098, .f32⟩
  | .hbm, ⟨34, _⟩ => ⟨S8192x4098, .f32⟩
  | .hbm, ⟨35, _⟩ => ⟨S_, .f32⟩
  | .hbm, ⟨36, _⟩ => ⟨S8192x4098, .f32⟩
  | .hbm, ⟨37, _⟩ => ⟨S8192x4098, .f32⟩
  | .hbm, ⟨38, _⟩ => ⟨S_, .f32⟩
  | .hbm, ⟨39, _⟩ => ⟨S4096x4098, .f32⟩
  | .hbm, ⟨40, _⟩ => ⟨S4096x4098, .i1⟩
  | .hbm, ⟨41, _⟩ => ⟨S4096x4098, .f32⟩
  | .hbm, ⟨42, _⟩ => ⟨S_, .f32⟩
  | .hbm, ⟨43, _⟩ => ⟨S4096x4098, .f32⟩
  | .hbm, ⟨44, _⟩ => ⟨S4096x4098, .i1⟩
  | .hbm, ⟨45, _⟩ => ⟨S4096x4098, .f32⟩
  | .hbm, ⟨46, _⟩ => ⟨S4096x4098, .f32⟩
  | .hbm, ⟨47, _⟩ => ⟨S4098x4096, .f32⟩
  | .hbm, ⟨48, _⟩ => ⟨S8192x4096, .f32⟩
  | .hbm, ⟨49, _⟩ => ⟨S4096x4098, .f32⟩
  | .hbm, ⟨50, _⟩ => ⟨S4098x4096, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S8192x4096, .f32⟩
  | .hbm, ⟨62, _⟩ => ⟨S8192x4096, .f32⟩
  | .hbm, ⟨63, _⟩ => ⟨S_, .f32⟩
  | .hbm, ⟨64, _⟩ => ⟨S8192x4096, .f32⟩
  | .hbm, ⟨65, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S4096x4098 : S_.BroadcastsInDim S4096x4098 (![] : Fin 0 → Fin S4096x4098.rank)
  reducesTo_S4096x4098_S4096_d1 : S4096x4098.ReducesTo [1] S4096
  h_S_ : 0 < S_.numel
  bcast_S4096_S4096x1_0 : S4096.BroadcastsInDim S4096x1 (![0] : Fin 1 → Fin S4096x1.rank)
  bcast_S4096x1_S4096x4098_0_1 : S4096x1.BroadcastsInDim S4096x4098 (![0, 1] : Fin 2 → Fin S4096x4098.rank)
  bcast_S_S8192x1 : S_.BroadcastsInDim S8192x1 (![] : Fin 0 → Fin S8192x1.rank)
  concatenates_S8192x4096_S8192x1_S8192x1_S8192x4098_d1 : Shape.Concatenates [S8192x4096, S8192x1, S8192x1] S8192x4098 1
  bcast_S_S8192x4098 : S_.BroadcastsInDim S8192x4098 (![] : Fin 0 → Fin S8192x4098.rank)
  transposes_S4096x4098_S4098x4096_1_0 : S4096x4098.Transposes [1, 0] S4098x4096
  bcast_S_S8192x4096 : S_.BroadcastsInDim S8192x4096 (![] : Fin 0 → Fin S8192x4096.rank)
  dot_S8192x4098_S4098x4096_S8192x4096_1_0_0_1_n_n_wf : DotDims.WF S8192x4098 S4098x4096 S8192x4096 [1] [0] [0] [1] [] []

variable [Facts₀]

def dot_S8192x4098_S4098x4096_S8192x4096_1_0_0_1_n_n : DotDims S8192x4098 S4098x4096 S8192x4096 where
  lhsContracting := [1]
  rhsContracting := [0]
  lhsNonContracting := [0]
  rhsNonContracting := [1]
  lhsBatch := []
  rhsBatch := []
  wf := dot_S8192x4098_S4098x4096_S8192x4096_1_0_0_1_n_n_wf

class Facts : Prop extends Facts₀ where

variable [Facts]
-- ==== Proof.KBBase.lean ====
/-
  The region of `Kernel` and what surrounds it, for the frame: the host operations before the region taken as one
  list, the contents `V` every buffer has when the region is entered, that the three argument arrays are among the
  buffers no host operation writes, the block of each window at a grid point read off `V`, and where on the grid
  the body's two conditions hold. The grid is 8 x 8 x 3, the last axis the contraction blocks: the first condition
  (the accumulator is reset) holds where the last coordinate is 0, the second (the output block is stored) where
  it is 2.
-/
import proofs.«125127_j40080634807072_1_alg».proof.Proof.Gen.Kernel.Launch
import proofs.«125127_j40080634807072_1_alg».proof.Proof.Gen.Kernel.Skeleton
import proofs.«125127_j40080634807072_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The seven stretches of host operations before the region, in program order. -/
abbrev hostAll : List (List (HloOp τ sig (Elt F))) :=
  [hostOps0, hostOps0_1, hostOps0_2, hostOps0_3, hostOps0_4, hostOps0_5, hostOps0_6]

/-- What core `c`'s buffers hold when the region is entered: the launch contents after all the host operations. -/
abbrev V (c : Dev nD) (b : Ref sig .tc) : Buf (Elt F) ((c : Thread nD τ).loc b) :=
  StableHlo.after (List.flatten (hostAll (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- The program is its host operations, stretch after stretch, then the region: the region is entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostAll (F := F))
    ⟨hostOps0_sub, hostOps0_1_sub, hostOps0_2_sub, hostOps0_3_sub, hostOps0_4_sub, hostOps0_5_sub, hostOps0_6_sub⟩
    ⟨fresh0, fresh1, fresh2, fresh3, fresh4, fresh5, fresh6⟩ main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, for any proof data whose array is
    `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, for any proof data whose array is
    `V`'s and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, for any proof data whose array is
    `V`'s and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- No window stages an argument array (the windows stage arrays the host operations computed), so each argument
    is among the buffers the region leaves as it found them, and it found them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) h

/-! ## The body's two conditions on the grid -/

/-- The accumulator is reset: the last grid coordinate is 0 (the body's scalar chain, substituted). -/
abbrev condReset (i : grid0.Coords) : Prop :=
  (Scalar.cmpi .ne (Scalar.extui (Scalar.cmpi .eq (BitVec.ofNat 32 (i 2).val) 0#32)) 0#32) = 1#1
/-- It holds at the points that are 0 modulo 3. -/
theorem hcondReset : ∀ t : Fin cfg0.N, condReset (grid0.coords t) ↔ t.val % 3 = 0 :=
  (by decide +kernel : ∀ t : Fin grid0.N, condReset (grid0.coords t) ↔ t.val % 3 = 0)

/-- The output block is stored: the last grid coordinate is 2. -/
abbrev condStore (i : grid0.Coords) : Prop := k0_cond2 i = 1#1
/-- It holds at the points that are 2 modulo 3. -/
theorem hcondStore : ∀ t : Fin cfg0.N, condStore (grid0.coords t) ↔ t.val % 3 = 2 :=
  (by decide +kernel : ∀ t : Fin grid0.N, condStore (grid0.coords t) ↔ t.val % 3 = 2)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the output block is not stored the output window is idle, -/
theorem idleAt3 : ∀ t : Fin cfg0.N, ¬condStore (grid0.coords t) → cfg0.idle 3 (grid0.coords t) = true := by decide +kernel
/-- and not written back; -/
theorem noFlush3 : ∀ t : Fin cfg0.N, ¬condStore (grid0.coords t) → (cfg0.win 3).flush t = false := by decide +kernel
/-- where it is stored the window is live. -/
theorem liveAt3 : ∀ t : Fin cfg0.N, condStore (grid0.coords t) → cfg0.idle 3 (grid0.coords t) = false := by decide +kernel

/-! ## The memrefs the body is called with -/

abbrev ms0 (t : Fin cfg0.N) : Memref sig .tc .vmem S1024x1408 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1408x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1408x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev scM : Memref sig .tc .vmem S1024x512 .f32 := Memref.whole cc0_scratch0

/-- The region's class invariant spelled with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KBRunA.lean ====
/-
  The body at a point where the accumulator is reset and the output block is not stored (last grid coordinate 0):
  on whole memrefs, the three input blocks at their contents, the output's buffer at any contents (handed back
  untouched) and the accumulator at anything, the body runs to the end holding the inputs as they were and the
  accumulator with its stores written; the list of stores is found by running the body.
-/
import proofs.«125127_j40080634807072_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : condReset i) (hcS : ¬condStore i)
    (x0 : Vec F S1024x1408 .bf16) (x1 : Vec F S1408x512 .bf16) (x2 : Vec F S1408x512 .bf16) :
    { LS : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, fun xi3 E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KBRunB.lean ====
/-
  The body at a point where the accumulator is neither reset nor read out (last grid coordinate 1): the three
  input blocks at their contents, the output's buffer at any contents (handed back untouched), the accumulator at
  what the point before left; the body runs to the end holding the inputs as they were and the accumulator with
  its store written.
-/
import proofs.«125127_j40080634807072_1_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : ¬condReset i) (hcS : ¬condStore i)
    (x0 : Vec F S1024x1408 .bf16) (x1 : Vec F S1408x512 .bf16) (x2 : Vec F S1408x512 .bf16) (xs : Vec F S1024x512 .f32) :
    { LS : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, fun xi3 E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Hand

end
-- ==== Proof.KBRunC.lean ====
/-
  The body at a point where the output block is stored (last grid coordinate 2): the three input blocks at
  their contents, the output's buffer at anything, the accumulator at what the point before left; the body runs
  to the end holding the inputs as they were, and the accumulator and the output's buffer each with its store
  written.
-/
import proofs.«125127_j40080634807072_1_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : ¬condReset i) (hcS : condStore i)
    (x0 : Vec F S1024x1408 .bf16) (x1 : Vec F S1408x512 .bf16) (x2 : Vec F S1408x512 .bf16) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, ?_, fun E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.KBFrame.lean ====
/-
  The frame of `Kernel`: what the accumulator and the output's staging buffer hold after each grid point, by
  recursion on the point; the region invariant that carries the accumulator from point to point; the proof data
  of the pipeline; the body's obligation at a generic point, by cases on the point modulo 3 (reset and accumulate,
  accumulate, accumulate and store); the run of the whole program; and from it that the argument arrays end as
  they were launched.
-/
import proofs.«125127_j40080634807072_1_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator as a view: what it holds is stated through it. -/
abbrev VS : View sig .tc .vmem S1024x512 .f32 := scM.view
/-- One staging buffer of the output window, through which the output block's contents are stated. -/
abbrev VO : View sig .tc .vmem S1024x512 .f32 := (Memref.whole cc0_stg3_0 : Memref sig .tc .vmem S1024x512 .f32).view

/-! ## What each case's stores leave -/

/-- The reset case's stores into the accumulator cover it. -/
theorem scoverReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : condReset i) (hcS : ¬condStore i) (x0 : Vec F S1024x1408 .bf16) (x1 : Vec F S1408x512 .bf16) (x2 : Vec F S1408x512 .bf16) (y : S1024x512.Idx) :
    ∃ pc ∈ (runReset c i arg3 harg3 arg4 harg4 arg5 harg5 arg6 harg6 arg7 harg7 hcR hcS x0 x1 x2).1, y ∈ pc.1.set :=
  View.cover_of_tiledL (runReset c i arg3 harg3 arg4 harg4 arg5 harg5 arg6 harg6 arg7 harg7 hcR hcS x0 x1 x2).1 S1024x512.size (by sl_kernel_rfl) y
/-- What the reset case leaves in the accumulator. -/
def soutReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : condReset i) (hcS : ¬condStore i) (x0 : Vec F S1024x1408 .bf16) (x1 : Vec F S1408x512 .bf16) (x2 : Vec F S1408x512 .bf16) : Vec F S1024x512 .f32 :=
  VS.read (Elt F) (VS.writes (Elt F) VS.junk (runReset c i arg3 harg3 arg4 harg4 arg5 harg5 arg6 harg6 arg7 harg7 hcR hcS x0 x1 x2).1)

/-- The accumulate case's store into the accumulator covers it. -/
theorem scoverAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : ¬condStore i) (x0 : Vec F S1024x1408 .bf16) (x1 : Vec F S1408x512 .bf16) (x2 : Vec F S1408x512 .bf16) (xs : Vec F S1024x512 .f32) (y : S1024x512.Idx) :
    ∃ pc ∈ (runAcc c i arg3 harg3 arg4 harg4 arg5 harg5 arg6 harg6 arg7 harg7 hcR hcS x0 x1 x2 xs).1, y ∈ pc.1.set :=
  View.cover_of_tiledL (runAcc c i arg3 harg3 arg4 harg4 arg5 harg5 arg6 harg6 arg7 harg7 hcR hcS x0 x1 x2 xs).1 S1024x512.size (by sl_kernel_rfl) y
/-- What the accumulate case leaves in the accumulator. -/
def soutAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : ¬condStore i) (x0 : Vec F S1024x1408 .bf16) (x1 : Vec F S1408x512 .bf16) (x2 : Vec F S1408x512 .bf16) (xs : Vec F S1024x512 .f32) : Vec F S1024x512 .f32 :=
  VS.read (Elt F) (VS.writes (Elt F) VS.junk (runAcc c i arg3 harg3 arg4 harg4 arg5 harg5 arg6 harg6 arg7 harg7 hcR hcS x0 x1 x2 xs).1)

/-- The store case's store into the output's buffer covers the block. -/
theorem coverStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) (y : S1024x512.Idx) :
    ∃ pc ∈ (runStore c i arg3 harg3 arg4 harg4 arg5 harg5 arg6 harg6 arg7 harg7 hcR hcS x0 x1 x2 xs).1, y ∈ pc.1.set :=
  View.cover_of_tiledL (runStore c i arg3 harg3 arg4 harg4 arg5 harg5 arg6 harg6 arg7 harg7 hcR hcS x0 x1 x2 xs).1 S1024x512.size (by sl_kernel_rfl) y
/-- What the store case leaves in the output's buffer. -/
def outStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) : Vec F S1024x512 .f32 :=
  VO.read (Elt F) (VO.writes (Elt F) VO.junk (runStore c i arg3 harg3 arg4 harg4 arg5 harg5 arg6 harg6 arg7 harg7 hcR hcS x0 x1 x2 xs).1)
/-- The store case's store into the accumulator covers it. -/
theorem scoverStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) (y : S1024x512.Idx) :
    ∃ pc ∈ (runStore c i arg3 harg3 arg4 harg4 arg5 harg5 arg6 harg6 arg7 harg7 hcR hcS x0 x1 x2 xs).2.1, y ∈ pc.1.set :=
  View.cover_of_tiledL (runStore c i arg3 harg3 arg4 harg4 arg5 harg5 arg6 harg6 arg7 harg7 hcR hcS x0 x1 x2 xs).2.1 S1024x512.size (by sl_kernel_rfl) y
/-- What the store case leaves in the accumulator. -/
def soutStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) : Vec F S1024x512 .f32 :=
  VS.read (Elt F) (VS.writes (Elt F) VS.junk (runStore c i arg3 harg3 arg4 harg4 arg5 harg5 arg6 harg6 arg7 harg7 hcR hcS x0 x1 x2 xs).2.1)

/-- Where the output block is not stored its window is idle and never consulted: a placeholder. -/
def outIdle : Vec F S1024x512 .f32 := VO.read (Elt F) (VO.writes (Elt F) VO.junk [])

/-! ## The accumulation, point by point -/

/-- What the output's staging buffer (first component) and the accumulator (second) hold after the body at position
    `n`: the case the position selects modulo 3, run at the point's memrefs and input blocks, the accumulator taken
    from the position before except where it is reset. -/
def outsAt (c : Dev nD) : (n : ℕ) → n < cfg0.N → Vec F S1024x512 .f32 × Vec F S1024x512 .f32
  | 0, hn => (outIdle, soutReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondReset ⟨0, hn⟩).mpr (Nat.zero_mod _)) (fun h => (fun h => by (try dsimp only at h); omega) ((hcondStore ⟨0, hn⟩).mp h)) (iblk m c 0 ⟨0, hn⟩) (iblk m c 1 ⟨0, hn⟩) (iblk m c 2 ⟨0, hn⟩))
  | n + 1, hn =>
    if h0 : (n + 1) % 3 = 0 then
      if h2 : (n + 1) % 3 = 2 then
        False.elim (by omega)
      else
        (outIdle, soutReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondReset ⟨n + 1, hn⟩).mpr h0) (fun h => h2 ((hcondStore ⟨n + 1, hn⟩).mp h)) (iblk m c 0 ⟨n + 1, hn⟩) (iblk m c 1 ⟨n + 1, hn⟩) (iblk m c 2 ⟨n + 1, hn⟩))
    else
      if h2 : (n + 1) % 3 = 2 then
        (outStore c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) ((hcondStore ⟨n + 1, hn⟩).mpr h2) (iblk m c 0 ⟨n + 1, hn⟩) (iblk m c 1 ⟨n + 1, hn⟩) (iblk m c 2 ⟨n + 1, hn⟩) (outsAt c n (Nat.lt_of_succ_lt hn)).2,
         soutStore c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) ((hcondStore ⟨n + 1, hn⟩).mpr h2) (iblk m c 0 ⟨n + 1, hn⟩) (iblk m c 1 ⟨n + 1, hn⟩) (iblk m c 2 ⟨n + 1, hn⟩) (outsAt c n (Nat.lt_of_succ_lt hn)).2)
      else
        (outIdle, soutAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) (fun h => h2 ((hcondStore ⟨n + 1, hn⟩).mp h)) (iblk m c 0 ⟨n + 1, hn⟩) (iblk m c 1 ⟨n + 1, hn⟩) (iblk m c 2 ⟨n + 1, hn⟩) (outsAt c n (Nat.lt_of_succ_lt hn)).2)

/-- At a reset point. -/
theorem outsAt_reset (c : Dev nD) (t : Fin cfg0.N) (h0 : t.val % 3 = 0) (h2 : ¬t.val % 3 = 2) :
    outsAt m c t.val t.isLt = (outIdle, soutReset c (grid0.coords t) (ms0 t) (hs0 t) (ms1 t) (hs1 t) (ms2 t) (hs2 t) (ms3 t) (hs3 t) scM (Memref.isWhole_whole _) ((hcondReset t).mpr h0) (fun h => h2 ((hcondStore t).mp h)) (iblk m c 0 t) (iblk m c 1 t) (iblk m c 2 t)) := by
  obtain ⟨n, hn⟩ := t
  cases n with
  | zero => exact rfl
  | succ n => exact (dif_pos h0).trans ((dif_neg h2).trans rfl)

/-- At an accumulate-only point: over what the point before left. -/
theorem outsAt_acc (c : Dev nD) (t : Fin cfg0.N) (h0 : ¬t.val % 3 = 0) (h2 : ¬t.val % 3 = 2) :
    outsAt m c t.val t.isLt = (outIdle, soutAcc c (grid0.coords t) (ms0 t) (hs0 t) (ms1 t) (hs1 t) (ms2 t) (hs2 t) (ms3 t) (hs3 t) scM (Memref.isWhole_whole _) (fun h => h0 ((hcondReset t).mp h)) (fun h => h2 ((hcondStore t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- At a store point: over what the point before left. -/
theorem outsAt_store (c : Dev nD) (t : Fin cfg0.N) (h0 : ¬t.val % 3 = 0) (h2 : t.val % 3 = 2) :
    outsAt m c t.val t.isLt = (outStore c (grid0.coords t) (ms0 t) (hs0 t) (ms1 t) (hs1 t) (ms2 t) (hs2 t) (ms3 t) (hs3 t) scM (Memref.isWhole_whole _) (fun h => h0 ((hcondReset t).mp h)) ((hcondStore t).mpr h2) (iblk m c 0 t) (iblk m c 1 t) (iblk m c 2 t) (outsAt m c (t.val - 1) (Nat.lt_of_le_of_lt (Nat.sub_le _ _) t.isLt)).2,
      soutStore c (grid0.coords t) (ms0 t) (hs0 t) (ms1 t) (hs1 t) (ms2 t) (hs2 t) (ms3 t) (hs3 t) scM (Memref.isWhole_whole _) (fun h => h0 ((hcondReset t).mp h)) ((hcondStore t).mpr h2) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-! ## The region invariant -/

/-- Before the first point the class's invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point modulo 3 selects the case; the invariant
    hands the body the accumulator at what the point before left (at anything at the first point) and takes it
    back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val % 3 = 0
  · have h2 : ¬t.val % 3 = 2 := by omega
    rw [Dat.leavesExact_idle (dats m 0 c) 3 t (idleAt3 t (fun h => h2 ((hcondStore t).mp h))) (noFlush3 t (fun h => h2 ((hcondStore t).mp h)))]
    rw [outsAt_reset m c t h0 h2]
    unfold soutReset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h2 ((hcondStore t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverReset c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h2 ((hcondStore t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverReset c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h2 : t.val % 3 = 2
    · rw [show (dats m 0 c).leavesExact 3 t = owns (c : Thread nD τ) (ms3 t) fullShare ((dats m 0 c).after 3 t) from by
        unfold Dat.leavesExact; rw [liveAt3 t ((hcondStore t).mpr h2)], after3]
      rw [outsAt_store m c t h0 h2]
      unfold outStore soutStore; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runStore c (grid0.coords t) _ _ _ _ _ _ _ _ _ _ (fun h => h0 ((hcondReset t).mp h)) ((hcondStore t).mpr h2) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scoverStore c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverStore c _ _ _ _ _ _ _ _ _ _ _ _ _ _ _ _ _)
    · rw [Dat.leavesExact_idle (dats m 0 c) 3 t (idleAt3 t (fun h => h2 ((hcondStore t).mp h))) (noFlush3 t (fun h => h2 ((hcondStore t).mp h)))]
      rw [outsAt_acc m c t h0 h2]
      unfold soutAcc; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runAcc c (grid0.coords t) _ _ _ _ _ _ _ _ _ _ (fun h => h0 ((hcondReset t).mp h)) (fun h => h2 ((hcondStore t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverAcc c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- Every weakly fair execution of the program terminates, nothing faulting, with every array of the pipeline at
    what the proof data gives and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.KIBase.lean ====
/-
  The region of `KernelIdeal` and what surrounds it, for the frame: the host operations before the region taken as one
  list, the contents `V` every buffer has when the region is entered, that the three argument arrays are among the
  buffers no host operation writes, the block of each window at a grid point read off `V`, and where on the grid
  the body's two conditions hold. The grid is 8 x 8 x 3, the last axis the contraction blocks: the first condition
  (the accumulator is reset) holds where the last coordinate is 0, the second (the output block is stored) where
  it is 2.
-/
import proofs.«125127_j40080634807072_1_alg».proof.Proof.Gen.KernelIdeal.Launch
import proofs.«125127_j40080634807072_1_alg».proof.Proof.Gen.KernelIdeal.Skeleton
import proofs.«125127_j40080634807072_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The seven stretches of host operations before the region, in program order. -/
abbrev hostAll : List (List (HloOp τ sig (Elt F))) :=
  [hostOps0, hostOps0_1, hostOps0_2, hostOps0_3, hostOps0_4, hostOps0_5, hostOps0_6]

/-- What core `c`'s buffers hold when the region is entered: the launch contents after all the host operations. -/
abbrev V (c : Dev nD) (b : Ref sig .tc) : Buf (Elt F) ((c : Thread nD τ).loc b) :=
  StableHlo.after (List.flatten (hostAll (F := F))) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor

/-- The program is its host operations, stretch after stretch, then the region: the region is entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostAll (F := F))
    ⟨hostOps0_sub, hostOps0_1_sub, hostOps0_2_sub, hostOps0_3_sub, hostOps0_4_sub, hostOps0_5_sub, hostOps0_6_sub⟩
    ⟨fresh0, fresh1, fresh2, fresh3, fresh4, fresh5, fresh6⟩ main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, StableHlo.TRef.unary, StableHlo.TRef.binary, StableHlo.TRef.ternary, List.flatten_cons, List.flatten_nil, List.append_nil, List.cons_append,
      List.nil_append, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, for any proof data whose array is
    `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, for any proof data whose array is
    `V`'s and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, for any proof data whose array is
    `V`'s and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- No window stages an argument array (the windows stage arrays the host operations computed), so each argument
    is among the buffers the region leaves as it found them, and it found them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) h

/-! ## The body's two conditions on the grid -/

/-- The accumulator is reset: the last grid coordinate is 0 (the body's scalar chain, substituted). -/
abbrev condReset (i : grid0.Coords) : Prop :=
  (Scalar.cmpi .ne (Scalar.extui (Scalar.cmpi .eq (BitVec.ofNat 32 (i 2).val) 0#32)) 0#32) = 1#1
/-- It holds at the points that are 0 modulo 3. -/
theorem hcondReset : ∀ t : Fin cfg0.N, condReset (grid0.coords t) ↔ t.val % 3 = 0 :=
  (by decide +kernel : ∀ t : Fin grid0.N, condReset (grid0.coords t) ↔ t.val % 3 = 0)

/-- The output block is stored: the last grid coordinate is 2. -/
abbrev condStore (i : grid0.Coords) : Prop := k0_cond2 i = 1#1
/-- It holds at the points that are 2 modulo 3. -/
theorem hcondStore : ∀ t : Fin cfg0.N, condStore (grid0.coords t) ↔ t.val % 3 = 2 :=
  (by decide +kernel : ∀ t : Fin grid0.N, condStore (grid0.coords t) ↔ t.val % 3 = 2)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Where the output block is not stored the output window is idle, -/
theorem idleAt3 : ∀ t : Fin cfg0.N, ¬condStore (grid0.coords t) → cfg0.idle 3 (grid0.coords t) = true := by decide +kernel
/-- and not written back; -/
theorem noFlush3 : ∀ t : Fin cfg0.N, ¬condStore (grid0.coords t) → (cfg0.win 3).flush t = false := by decide +kernel
/-- where it is stored the window is live. -/
theorem liveAt3 : ∀ t : Fin cfg0.N, condStore (grid0.coords t) → cfg0.idle 3 (grid0.coords t) = false := by decide +kernel

/-! ## The memrefs the body is called with -/

abbrev ms0 (t : Fin cfg0.N) : Memref sig .tc .vmem S1024x1408 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1408x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1408x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev scM : Memref sig .tc .vmem S1024x512 .f32 := Memref.whole cc0_scratch0

/-- The region's class invariant spelled with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIRunA.lean ====
/-
  The body at a point where the accumulator is reset and the output block is not stored (last grid coordinate 0):
  on whole memrefs, the three input blocks at their contents, the output's buffer at any contents (handed back
  untouched) and the accumulator at anything, the body runs to the end holding the inputs as they were and the
  accumulator with its stores written; the list of stores is found by running the body.
-/
import proofs.«125127_j40080634807072_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : condReset i) (hcS : ¬condStore i)
    (x0 : Vec F S1024x1408 .bf16) (x1 : Vec F S1408x512 .bf16) (x2 : Vec F S1408x512 .bf16) :
    { LS : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, fun xi3 E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2
    obtain rfl := harg6.eq_unread hf3
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KIRunB.lean ====
/-
  The body at a point where the accumulator is neither reset nor read out (last grid coordinate 1): the three
  input blocks at their contents, the output's buffer at any contents (handed back untouched), the accumulator at
  what the point before left; the body runs to the end holding the inputs as they were and the accumulator with
  its store written.
-/
import proofs.«125127_j40080634807072_1_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : ¬condReset i) (hcS : ¬condStore i)
    (x0 : Vec F S1024x1408 .bf16) (x1 : Vec F S1408x512 .bf16) (x2 : Vec F S1408x512 .bf16) (xs : Vec F S1024x512 .f32) :
    { LS : List (View.Piece (Elt F) S1024x512 .f32) //
      ∀ (xi3 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, fun xi3 E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2
    obtain rfl := harg6.eq_unread hf3; obtain rfl := harg7.eq_unread hfs
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Hand

end
-- ==== Proof.KIRunC.lean ====
/-
  The body at a point where the output block is stored (last grid coordinate 2): the three input blocks at
  their contents, the output's buffer at anything, the accumulator at what the point before left; the body runs
  to the end holding the inputs as they were, and the accumulator and the output's buffer each with its store
  written.
-/
import proofs.«125127_j40080634807072_1_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def runStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole)
    (hcR : ¬condReset i) (hcS : condStore i)
    (x0 : Vec F S1024x1408 .bf16) (x1 : Vec F S1408x512 .bf16) (x2 : Vec F S1408x512 .bf16) (xs : Vec F S1024x512 .f32) :
    Σ' (L3 : List (View.Piece (Elt F) S1024x512 .f32)), { LS : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc0__pnn_kernel i arg3 harg3 arg4 harg4 arg5 harg5 arg6 harg6 arg7 harg7) K } := by
  refine ⟨?_, ?_, fun E K => ?run⟩
  case run =>
    simp only [cc0__pnn_kernel_eq_skeleton]; unfold cc0__pnn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hcR | exact hcS)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.KIFrame.lean ====
/-
  The frame of `KernelIdeal`: what the accumulator and the output's staging buffer hold after each grid point, by
  recursion on the point; the region invariant that carries the accumulator from point to point; the proof data
  of the pipeline; the body's obligation at a generic point, by cases on the point modulo 3 (reset and accumulate,
  accumulate, accumulate and store); the run of the whole program; and from it that the argument arrays end as
  they were launched.
-/
import proofs.«125127_j40080634807072_1_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator as a view: what it holds is stated through it. -/
abbrev VS : View sig .tc .vmem S1024x512 .f32 := scM.view
/-- One staging buffer of the output window, through which the output block's contents are stated. -/
abbrev VO : View sig .tc .vmem S1024x512 .f32 := (Memref.whole cc0_stg3_0 : Memref sig .tc .vmem S1024x512 .f32).view

/-! ## What each case's stores leave -/

/-- The reset case's stores into the accumulator cover it. -/
theorem scoverReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : condReset i) (hcS : ¬condStore i) (x0 : Vec F S1024x1408 .bf16) (x1 : Vec F S1408x512 .bf16) (x2 : Vec F S1408x512 .bf16) (y : S1024x512.Idx) :
    ∃ pc ∈ (runReset c i arg3 harg3 arg4 harg4 arg5 harg5 arg6 harg6 arg7 harg7 hcR hcS x0 x1 x2).1, y ∈ pc.1.set :=
  View.cover_of_tiledL (runReset c i arg3 harg3 arg4 harg4 arg5 harg5 arg6 harg6 arg7 harg7 hcR hcS x0 x1 x2).1 S1024x512.size (by sl_kernel_rfl) y
/-- What the reset case leaves in the accumulator. -/
def soutReset (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : condReset i) (hcS : ¬condStore i) (x0 : Vec F S1024x1408 .bf16) (x1 : Vec F S1408x512 .bf16) (x2 : Vec F S1408x512 .bf16) : Vec F S1024x512 .f32 :=
  VS.read (Elt F) (VS.writes (Elt F) VS.junk (runReset c i arg3 harg3 arg4 harg4 arg5 harg5 arg6 harg6 arg7 harg7 hcR hcS x0 x1 x2).1)

/-- The accumulate case's store into the accumulator covers it. -/
theorem scoverAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : ¬condStore i) (x0 : Vec F S1024x1408 .bf16) (x1 : Vec F S1408x512 .bf16) (x2 : Vec F S1408x512 .bf16) (xs : Vec F S1024x512 .f32) (y : S1024x512.Idx) :
    ∃ pc ∈ (runAcc c i arg3 harg3 arg4 harg4 arg5 harg5 arg6 harg6 arg7 harg7 hcR hcS x0 x1 x2 xs).1, y ∈ pc.1.set :=
  View.cover_of_tiledL (runAcc c i arg3 harg3 arg4 harg4 arg5 harg5 arg6 harg6 arg7 harg7 hcR hcS x0 x1 x2 xs).1 S1024x512.size (by sl_kernel_rfl) y
/-- What the accumulate case leaves in the accumulator. -/
def soutAcc (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : ¬condStore i) (x0 : Vec F S1024x1408 .bf16) (x1 : Vec F S1408x512 .bf16) (x2 : Vec F S1408x512 .bf16) (xs : Vec F S1024x512 .f32) : Vec F S1024x512 .f32 :=
  VS.read (Elt F) (VS.writes (Elt F) VS.junk (runAcc c i arg3 harg3 arg4 harg4 arg5 harg5 arg6 harg6 arg7 harg7 hcR hcS x0 x1 x2 xs).1)

/-- The store case's store into the output's buffer covers the block. -/
theorem coverStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) (y : S1024x512.Idx) :
    ∃ pc ∈ (runStore c i arg3 harg3 arg4 harg4 arg5 harg5 arg6 harg6 arg7 harg7 hcR hcS x0 x1 x2 xs).1, y ∈ pc.1.set :=
  View.cover_of_tiledL (runStore c i arg3 harg3 arg4 harg4 arg5 harg5 arg6 harg6 arg7 harg7 hcR hcS x0 x1 x2 xs).1 S1024x512.size (by sl_kernel_rfl) y
/-- What the store case leaves in the output's buffer. -/
def outStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) : Vec F S1024x512 .f32 :=
  VO.read (Elt F) (VO.writes (Elt F) VO.junk (runStore c i arg3 harg3 arg4 harg4 arg5 harg5 arg6 harg6 arg7 harg7 hcR hcS x0 x1 x2 xs).1)
/-- The store case's store into the accumulator covers it. -/
theorem scoverStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) (y : S1024x512.Idx) :
    ∃ pc ∈ (runStore c i arg3 harg3 arg4 harg4 arg5 harg5 arg6 harg6 arg7 harg7 hcR hcS x0 x1 x2 xs).2.1, y ∈ pc.1.set :=
  View.cover_of_tiledL (runStore c i arg3 harg3 arg4 harg4 arg5 harg5 arg6 harg6 arg7 harg7 hcR hcS x0 x1 x2 xs).2.1 S1024x512.size (by sl_kernel_rfl) y
/-- What the store case leaves in the accumulator. -/
def soutStore (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i) (x0 : Vec F S1024x1408 .bf16) (x1 : Vec F S1408x512 .bf16) (x2 : Vec F S1408x512 .bf16) (xs : Vec F S1024x512 .f32) : Vec F S1024x512 .f32 :=
  VS.read (Elt F) (VS.writes (Elt F) VS.junk (runStore c i arg3 harg3 arg4 harg4 arg5 harg5 arg6 harg6 arg7 harg7 hcR hcS x0 x1 x2 xs).2.1)

/-- Where the output block is not stored its window is idle and never consulted: a placeholder. -/
def outIdle : Vec F S1024x512 .f32 := VO.read (Elt F) (VO.writes (Elt F) VO.junk [])

/-! ## The accumulation, point by point -/

/-- What the output's staging buffer (first component) and the accumulator (second) hold after the body at position
    `n`: the case the position selects modulo 3, run at the point's memrefs and input blocks, the accumulator taken
    from the position before except where it is reset. -/
def outsAt (c : Dev nD) : (n : ℕ) → n < cfg0.N → Vec F S1024x512 .f32 × Vec F S1024x512 .f32
  | 0, hn => (outIdle, soutReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcondReset ⟨0, hn⟩).mpr (Nat.zero_mod _)) (fun h => (fun h => by (try dsimp only at h); omega) ((hcondStore ⟨0, hn⟩).mp h)) (iblk m c 0 ⟨0, hn⟩) (iblk m c 1 ⟨0, hn⟩) (iblk m c 2 ⟨0, hn⟩))
  | n + 1, hn =>
    if h0 : (n + 1) % 3 = 0 then
      if h2 : (n + 1) % 3 = 2 then
        False.elim (by omega)
      else
        (outIdle, soutReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((hcondReset ⟨n + 1, hn⟩).mpr h0) (fun h => h2 ((hcondStore ⟨n + 1, hn⟩).mp h)) (iblk m c 0 ⟨n + 1, hn⟩) (iblk m c 1 ⟨n + 1, hn⟩) (iblk m c 2 ⟨n + 1, hn⟩))
    else
      if h2 : (n + 1) % 3 = 2 then
        (outStore c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) ((hcondStore ⟨n + 1, hn⟩).mpr h2) (iblk m c 0 ⟨n + 1, hn⟩) (iblk m c 1 ⟨n + 1, hn⟩) (iblk m c 2 ⟨n + 1, hn⟩) (outsAt c n (Nat.lt_of_succ_lt hn)).2,
         soutStore c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) ((hcondStore ⟨n + 1, hn⟩).mpr h2) (iblk m c 0 ⟨n + 1, hn⟩) (iblk m c 1 ⟨n + 1, hn⟩) (iblk m c 2 ⟨n + 1, hn⟩) (outsAt c n (Nat.lt_of_succ_lt hn)).2)
      else
        (outIdle, soutAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((hcondReset ⟨n + 1, hn⟩).mp h)) (fun h => h2 ((hcondStore ⟨n + 1, hn⟩).mp h)) (iblk m c 0 ⟨n + 1, hn⟩) (iblk m c 1 ⟨n + 1, hn⟩) (iblk m c 2 ⟨n + 1, hn⟩) (outsAt c n (Nat.lt_of_succ_lt hn)).2)

/-- At a reset point. -/
theorem outsAt_reset (c : Dev nD) (t : Fin cfg0.N) (h0 : t.val % 3 = 0) (h2 : ¬t.val % 3 = 2) :
    outsAt m c t.val t.isLt = (outIdle, soutReset c (grid0.coords t) (ms0 t) (hs0 t) (ms1 t) (hs1 t) (ms2 t) (hs2 t) (ms3 t) (hs3 t) scM (Memref.isWhole_whole _) ((hcondReset t).mpr h0) (fun h => h2 ((hcondStore t).mp h)) (iblk m c 0 t) (iblk m c 1 t) (iblk m c 2 t)) := by
  obtain ⟨n, hn⟩ := t
  cases n with
  | zero => exact rfl
  | succ n => exact (dif_pos h0).trans ((dif_neg h2).trans rfl)

/-- At an accumulate-only point: over what the point before left. -/
theorem outsAt_acc (c : Dev nD) (t : Fin cfg0.N) (h0 : ¬t.val % 3 = 0) (h2 : ¬t.val % 3 = 2) :
    outsAt m c t.val t.isLt = (outIdle, soutAcc c (grid0.coords t) (ms0 t) (hs0 t) (ms1 t) (hs1 t) (ms2 t) (hs2 t) (ms3 t) (hs3 t) scM (Memref.isWhole_whole _) (fun h => h0 ((hcondReset t).mp h)) (fun h => h2 ((hcondStore t).mp h)) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h2).trans rfl)

/-- At a store point: over what the point before left. -/
theorem outsAt_store (c : Dev nD) (t : Fin cfg0.N) (h0 : ¬t.val % 3 = 0) (h2 : t.val % 3 = 2) :
    outsAt m c t.val t.isLt = (outStore c (grid0.coords t) (ms0 t) (hs0 t) (ms1 t) (hs1 t) (ms2 t) (hs2 t) (ms3 t) (hs3 t) scM (Memref.isWhole_whole _) (fun h => h0 ((hcondReset t).mp h)) ((hcondStore t).mpr h2) (iblk m c 0 t) (iblk m c 1 t) (iblk m c 2 t) (outsAt m c (t.val - 1) (Nat.lt_of_le_of_lt (Nat.sub_le _ _) t.isLt)).2,
      soutStore c (grid0.coords t) (ms0 t) (hs0 t) (ms1 t) (hs1 t) (ms2 t) (hs2 t) (ms3 t) (hs3 t) scM (Memref.isWhole_whole _) (fun h => h0 ((hcondReset t).mp h)) ((hcondStore t).mpr h2) (iblk m c 0 t) (iblk m c 1 t) (iblk m c 2 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h2).trans rfl)

/-! ## The region invariant -/

/-- Before the first point the class's invariant (the accumulator at anything); afterwards the accumulator at what
    the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point modulo 3 selects the case; the invariant
    hands the body the accumulator at what the point before left (at anything at the first point) and takes it
    back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  by_cases h0 : t.val % 3 = 0
  · have h2 : ¬t.val % 3 = 2 := by omega
    rw [Dat.leavesExact_idle (dats m 0 c) 3 t (idleAt3 t (fun h => h2 ((hcondStore t).mp h))) (noFlush3 t (fun h => h2 ((hcondStore t).mp h)))]
    rw [outsAt_reset m c t h0 h2]
    unfold soutReset; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h2 ((hcondStore t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverReset c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runReset c (grid0.coords t) _ _ _ _ _ _ _ _ _ _ ((hcondReset t).mpr h0) (fun h => h2 ((hcondStore t).mp h)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverReset c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h2 : t.val % 3 = 2
    · rw [show (dats m 0 c).leavesExact 3 t = owns (c : Thread nD τ) (ms3 t) fullShare ((dats m 0 c).after 3 t) from by
        unfold Dat.leavesExact; rw [liveAt3 t ((hcondStore t).mpr h2)], after3]
      rw [outsAt_store m c t h0 h2]
      unfold outStore soutStore; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runStore c (grid0.coords t) _ _ _ _ _ _ _ _ _ _ (fun h => h0 ((hcondReset t).mp h)) ((hcondStore t).mpr h2) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (scoverStore c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverStore c _ _ _ _ _ _ _ _ _ _ _ _ _ _ _ _ _)
    · rw [Dat.leavesExact_idle (dats m 0 c) 3 t (idleAt3 t (fun h => h2 ((hcondStore t).mp h))) (noFlush3 t (fun h => h2 ((hcondStore t).mp h)))]
      rw [outsAt_acc m c t h0 h2]
      unfold soutAcc; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runAcc c (grid0.coords t) _ _ _ _ _ _ _ _ _ _ (fun h => h0 ((hcondReset t).mp h)) (fun h => h2 ((hcondStore t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (scoverAcc c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 192 := N_0; omega)

/-! ## The run and the frame -/

set_option backward.isDefEq.respectTransparency.types false in
/-- Every weakly fair execution of the program terminates, nothing faulting, with every array of the pipeline at
    what the proof data gives and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KIPieces.lean ====
/-
  What each case of the body leaves, as values: the accumulator after a reset point is the accumulate step over the
  zero block; after any other point it is the accumulate step over what the point before left; the output's buffer
  after a store point is the output response of the accumulator. Each is the payload of the case's one covering
  store, its loads reading whole buffers.
-/
import proofs.«125127_j40080634807072_1_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- An accumulate-only point leaves the accumulate step of the three input blocks over the previous contents. -/
theorem soutAcc_eq (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : ¬condStore i)
    (x0 : Vec F S1024x1408 .bf16) (x1 : Vec F S1408x512 .bf16) (x2 : Vec F S1408x512 .bf16) (xs : Vec F S1024x512 .f32) :
    soutAcc c i arg3 harg3 arg4 harg4 arg5 harg5 arg6 harg6 arg7 harg7 hcR hcS x0 x1 x2 xs = k0_pay2 x0 x1 x2 xs := by
  unfold soutAcc
  rw [View.read_writes_eq_canon _ _ _ (scoverAcc c i arg3 harg3 arg4 harg4 arg5 harg5 arg6 harg6 arg7 harg7 hcR hcS x0 x1 x2 xs)]
  unfold runAcc
  dsimp only
  rw [View.canon_unit_zero hz]
  simp only [View.readAt_eq_ld, harg3.read_unread, harg4.read_unread, harg5.read_unread, harg7.read_unread, View.ld_unit_zero (S := S1024x1408) hz, View.ld_unit_zero (S := S1408x512) hz, View.ld_unit_zero (S := S1024x512) hz]

/-- A store point leaves the same in the accumulator, -/
theorem soutStore_eq (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i)
    (x0 : Vec F S1024x1408 .bf16) (x1 : Vec F S1408x512 .bf16) (x2 : Vec F S1408x512 .bf16) (xs : Vec F S1024x512 .f32) :
    soutStore c i arg3 harg3 arg4 harg4 arg5 harg5 arg6 harg6 arg7 harg7 hcR hcS x0 x1 x2 xs = k0_pay2 x0 x1 x2 xs := by
  unfold soutStore
  rw [View.read_writes_eq_canon _ _ _ (scoverStore c i arg3 harg3 arg4 harg4 arg5 harg5 arg6 harg6 arg7 harg7 hcR hcS x0 x1 x2 xs)]
  unfold runStore
  dsimp only
  sl_unfold_words
  rw [View.canon_unit_zero hz]
  simp only [View.readAt_eq_ld, harg3.read_unread, harg4.read_unread, harg5.read_unread, harg7.read_unread, View.ld_unit_zero (S := S1024x1408) hz, View.ld_unit_zero (S := S1408x512) hz, View.ld_unit_zero (S := S1024x512) hz]

/-- and the output response of that in the output's buffer: the accumulator is read back after its store. -/
theorem outStore_eq (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : ¬condReset i) (hcS : condStore i)
    (x0 : Vec F S1024x1408 .bf16) (x1 : Vec F S1408x512 .bf16) (x2 : Vec F S1408x512 .bf16) (xs : Vec F S1024x512 .f32) :
    outStore c i arg3 harg3 arg4 harg4 arg5 harg5 arg6 harg6 arg7 harg7 hcR hcS x0 x1 x2 xs = k0_pay3 (k0_pay2 x0 x1 x2 xs) := by
  unfold outStore
  rw [View.read_writes_eq_canon _ _ _ (coverStore c i arg3 harg3 arg4 harg4 arg5 harg5 arg6 harg6 arg7 harg7 hcR hcS x0 x1 x2 xs)]
  unfold runStore
  dsimp only
  sl_unfold_words
  rw [View.canon_unit_zero hz, View.readCov_unit_zero (S := S1024x512) _ hz]
  simp only [View.readAt_eq_ld, harg3.read_unread, harg4.read_unread, harg5.read_unread, harg7.read_unread, View.ld_unit_zero (S := S1024x1408) hz, View.ld_unit_zero (S := S1408x512) hz, View.ld_unit_zero (S := S1024x512) hz]

/-- A reset point stores the zero block, reads it back, and leaves the accumulate step over it. -/
theorem soutReset_eq (c : Dev nD) (i : grid0.Coords) (arg3 : Memref sig .tc .vmem S1024x1408 .bf16) (harg3 : arg3.IsWhole) (arg4 : Memref sig .tc .vmem S1408x512 .bf16) (harg4 : arg4.IsWhole) (arg5 : Memref sig .tc .vmem S1408x512 .bf16) (harg5 : arg5.IsWhole) (arg6 : Memref sig .tc .vmem S1024x512 .f32) (harg6 : arg6.IsWhole) (arg7 : Memref sig .tc .vmem S1024x512 .f32) (harg7 : arg7.IsWhole) (hcR : condReset i) (hcS : ¬condStore i)
    (x0 : Vec F S1024x1408 .bf16) (x1 : Vec F S1408x512 .bf16) (x2 : Vec F S1408x512 .bf16) :
    soutReset c i arg3 harg3 arg4 harg4 arg5 harg5 arg6 harg6 arg7 harg7 hcR hcS x0 x1 x2 = k0_pay2 x0 x1 x2 (k0_pay1 (F := F)) := by
  unfold soutReset
  rw [View.read_writes_eq_canon _ _ _ (scoverReset c i arg3 harg3 arg4 harg4 arg5 harg5 arg6 harg6 arg7 harg7 hcR hcS x0 x1 x2)]
  unfold runReset
  dsimp only
  sl_unfold_words
  rw [View.canon_cons_unit_zero (S := S1024x512) hz, View.readCov_unit_zero (S := S1024x512) _ hz]
  simp only [View.readAt_eq_ld, harg3.read_unread, harg4.read_unread, harg5.read_unread, harg7.read_unread, View.ld_unit_zero (S := S1024x1408) hz, View.ld_unit_zero (S := S1408x512) hz, View.ld_unit_zero (S := S1024x512) hz]

end Cert.KernelIdeal.Hand

end
-- ==== Proof.KIClosed.lean ====
/-
  What a store point writes, in closed form. The contraction axis is the last grid axis and has three blocks, so a
  store point `t` (2 modulo 3) is preceded by an accumulate-only point `t - 1` and a reset point `t - 2` with the same
  output block: the output's buffer holds the output response of three accumulate steps over the zero block, one per
  contraction block, in order.
-/
import proofs.«125127_j40080634807072_1_alg».proof.Proof.KIPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The point before a store point, -/
def prev1 (t : Fin cfg0.N) (h2 : t.val % 3 = 2) : Fin cfg0.N := ⟨t.val - 1, by have := t.isLt; omega⟩
/-- and the one before that. -/
def prev2 (t : Fin cfg0.N) (h2 : t.val % 3 = 2) : Fin cfg0.N := ⟨t.val - 1 - 1, by have := t.isLt; omega⟩

/-- After a reset point the accumulator holds one accumulate step over the zero block. -/
theorem acc_reset (c : Dev nD) (s : Fin cfg0.N) (h0 : s.val % 3 = 0) (h2 : ¬s.val % 3 = 2) :
    (outsAt m c s.val s.isLt).2 = k0_pay2 (iblk m c 0 s) (iblk m c 1 s) (iblk m c 2 s) (k0_pay1 (F := F)) := by
  rw [outsAt_reset m c s h0 h2]
  dsimp only
  exact soutReset_eq (F := F) c (grid0.coords s) (ms0 s) (hs0 s) (ms1 s) (hs1 s) (ms2 s) (hs2 s) (ms3 s) (hs3 s) scM (Memref.isWhole_whole _) ((hcondReset s).mpr h0) (fun h => h2 ((hcondStore s).mp h)) (iblk m c 0 s) (iblk m c 1 s) (iblk m c 2 s)

/-- After an accumulate-only point it holds one step over what the point before left. -/
theorem acc_acc (c : Dev nD) (s : Fin cfg0.N) (h0 : ¬s.val % 3 = 0) (h2 : ¬s.val % 3 = 2) :
    (outsAt m c s.val s.isLt).2 = k0_pay2 (iblk m c 0 s) (iblk m c 1 s) (iblk m c 2 s) (outsAt m c (s.val - 1) (Nat.lt_of_le_of_lt (Nat.sub_le _ _) s.isLt)).2 := by
  rw [outsAt_acc m c s h0 h2]
  dsimp only
  exact soutAcc_eq (F := F) c (grid0.coords s) (ms0 s) (hs0 s) (ms1 s) (hs1 s) (ms2 s) (hs2 s) (ms3 s) (hs3 s) scM (Memref.isWhole_whole _) (fun h => h0 ((hcondReset s).mp h)) (fun h => h2 ((hcondStore s).mp h)) (iblk m c 0 s) (iblk m c 1 s) (iblk m c 2 s)
    (outsAt m c (s.val - 1) (Nat.lt_of_le_of_lt (Nat.sub_le _ _) s.isLt)).2

/-- After a store point the output's buffer holds the output response of one more step. -/
theorem out_store (c : Dev nD) (s : Fin cfg0.N) (h0 : ¬s.val % 3 = 0) (h2 : s.val % 3 = 2) :
    (outsAt m c s.val s.isLt).1 = k0_pay3 (k0_pay2 (iblk m c 0 s) (iblk m c 1 s) (iblk m c 2 s) (outsAt m c (s.val - 1) (Nat.lt_of_le_of_lt (Nat.sub_le _ _) s.isLt)).2) := by
  rw [outsAt_store m c s h0 h2]
  dsimp only
  exact outStore_eq (F := F) c (grid0.coords s) (ms0 s) (hs0 s) (ms1 s) (hs1 s) (ms2 s) (hs2 s) (ms3 s) (hs3 s) scM (Memref.isWhole_whole _) (fun h => h0 ((hcondReset s).mp h)) ((hcondStore s).mpr h2) (iblk m c 0 s) (iblk m c 1 s) (iblk m c 2 s)
    (outsAt m c (s.val - 1) (Nat.lt_of_le_of_lt (Nat.sub_le _ _) s.isLt)).2

/-- A store point writes the output response of three accumulate steps over the zero block. -/
theorem store_closed (c : Dev nD) (t : Fin cfg0.N) (h2 : t.val % 3 = 2) :
    (outsAt m c t.val t.isLt).1
      = k0_pay3 (k0_pay2 (iblk m c 0 t) (iblk m c 1 t) (iblk m c 2 t) (k0_pay2 (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := F))))) := by
  have hN : cfg0.N = 192 := N_0
  have hlt := t.isLt
  have h0 : ¬t.val % 3 = 0 := by omega
  have e2 := acc_reset m c (prev2 t h2) (by show (t.val - 1 - 1) % 3 = 0; omega) (by show ¬(t.val - 1 - 1) % 3 = 2; omega)
  have e1 := acc_acc m c (prev1 t h2) (by show ¬(t.val - 1) % 3 = 0; omega) (by show ¬(t.val - 1) % 3 = 2; omega)
  have e0 := out_store m c t h0 h2
  rw [e0]
  refine congrArg (fun x => k0_pay3 (k0_pay2 (iblk m c 0 t) (iblk m c 1 t) (iblk m c 2 t) x)) ?_
  refine e1.trans ?_
  exact congrArg (fun x => k0_pay2 (iblk m c 0 (prev1 t h2)) (iblk m c 1 (prev1 t h2)) (iblk m c 2 (prev1 t h2)) x) e2

end Cert.KernelIdeal.Hand

end
-- ==== Proof.KIBlocks.lean ====
/-
  Where the windows' blocks sit. Grid point `t` of the 8 x 8 x 3 grid has coordinates (t / 24, t / 3 mod 8, t mod 3):
  the row block, the column block and the contraction block. The activations' block at `t` is rows
  [1024 (t / 24), +1024) and columns [1408 (t mod 3), +1408) of the padded activations; each weight block is rows
  [1408 (t mod 3), +1408) and columns [512 (t / 3 mod 8), +512) of its padded, transposed weight array; the output
  block is rows [1024 (t / 24), +1024), columns [512 (t / 3 mod 8), +512).
-/
import proofs.«125127_j40080634807072_1_alg».proof.Proof.KIClosed
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

variable (m : (ℓ : Loc nD τ sig) → Buf (Elt Ideal) ℓ)

/-- The printed index maps in closed form, decided once over the grid. -/
theorem idx_facts : ∀ t : Fin cfg0.N,
    win0_0.index t (0 : Fin 2) = t.val / 24 ∧ win0_0.index t (1 : Fin 2) = t.val % 3
    ∧ win0_1.index t (0 : Fin 2) = t.val % 3 ∧ win0_1.index t (1 : Fin 2) = t.val / 3 % 8
    ∧ win0_2.index t (0 : Fin 2) = t.val % 3 ∧ win0_2.index t (1 : Fin 2) = t.val / 3 % 8
    ∧ win0_3.index t (0 : Fin 2) = t.val / 24 ∧ win0_3.index t (1 : Fin 2) = t.val / 3 % 8 :=
  (by decide +kernel : ∀ t : Fin grid0.N, _)

/-- The activations' block at point `s`, entry (p, kk), is the padded activations' entry (r, k) when
    r = 1024 (s / 24) + p and k = 1408 (s mod 3) + kk. -/
theorem iblk0_apply (c : Dev nD) (s : Fin cfg0.N) (p : Fin 1024) (kk : Fin 1408) (r : Fin 8192) (k : Fin 4224)
    (hr : r.val = s.val / 24 * 1024 + p.val) (hk : k.val = s.val % 3 * 1408 + kk.val) :
    (iblk m c 0 s : Vec Ideal S1024x1408 .bf16) (ix2 p kk) = (V m c main_v28 : S8192x4224.Idx → EReal) (ix2 r k) := by
  obtain ⟨e0, e1, -⟩ := idx_facts s
  unfold iblk
  rw [View.read_apply]
  show V m c main_v28 (((cfg0.win 0).blk s).view.emb (ix2 p kk)) = V m c main_v28 (ix2 r k)
  refine congrArg _ ?_
  funext a; apply Fin.ext
  match a with
  | ⟨0, _⟩ => show win0_0.index s (0 : Fin 2) * 1024 + 1 * p.val = r.val; omega
  | ⟨1, _⟩ => show win0_0.index s (1 : Fin 2) * 1408 + 1 * kk.val = k.val; omega

/-- The first weight array's block at `s`, entry (kk, q), is its entry (k, j) when k = 1408 (s mod 3) + kk and
    j = 512 (s / 3 mod 8) + q. -/
theorem iblk1_apply (c : Dev nD) (s : Fin cfg0.N) (kk : Fin 1408) (q : Fin 512) (k : Fin 4224) (j : Fin 4096)
    (hk : k.val = s.val % 3 * 1408 + kk.val) (hj : j.val = s.val / 3 % 8 * 512 + q.val) :
    (iblk m c 1 s : Vec Ideal S1408x512 .bf16) (ix2 kk q) = (V m c main_v21 : S4224x4096.Idx → EReal) (ix2 k j) := by
  obtain ⟨-, -, e0, e1, -⟩ := idx_facts s
  unfold iblk
  rw [View.read_apply]
  show V m c main_v21 (((cfg0.win 1).blk s).view.emb (ix2 kk q)) = V m c main_v21 (ix2 k j)
  refine congrArg _ ?_
  funext a; apply Fin.ext
  match a with
  | ⟨0, _⟩ => show win0_1.index s (0 : Fin 2) * 1408 + 1 * kk.val = k.val; omega
  | ⟨1, _⟩ => show win0_1.index s (1 : Fin 2) * 512 + 1 * q.val = j.val; omega

/-- The second weight array's block, likewise. -/
theorem iblk2_apply (c : Dev nD) (s : Fin cfg0.N) (kk : Fin 1408) (q : Fin 512) (k : Fin 4224) (j : Fin 4096)
    (hk : k.val = s.val % 3 * 1408 + kk.val) (hj : j.val = s.val / 3 % 8 * 512 + q.val) :
    (iblk m c 2 s : Vec Ideal S1408x512 .bf16) (ix2 kk q) = (V m c main_v23 : S4224x4096.Idx → EReal) (ix2 k j) := by
  obtain ⟨-, -, -, -, e0, e1, -⟩ := idx_facts s
  unfold iblk
  rw [View.read_apply]
  show V m c main_v23 (((cfg0.win 2).blk s).view.emb (ix2 kk q)) = V m c main_v23 (ix2 k j)
  refine congrArg _ ?_
  funext a; apply Fin.ext
  match a with
  | ⟨0, _⟩ => show win0_2.index s (0 : Fin 2) * 1408 + 1 * kk.val = k.val; omega
  | ⟨1, _⟩ => show win0_2.index s (1 : Fin 2) * 512 + 1 * q.val = j.val; omega

end Cert.KernelIdeal.Hand

end
-- ==== Proof.Spec.lean ====
/-
  The function both programs compute, stated once over the argument array and the two weight arrays.

  An input row `a r ·` of 4096 activations is augmented by a column of ones and a column of zeros (4098
  columns). Every column `k` drives two branches: the activation itself against the weight `Wp j k`, and the
  inverter response `inv` of the activation against the weight `Wn j k`. The pre-activation of output `j` on
  row `r` is the sum of both branches over the 4098 columns, and the result is its response `act`.
  The float literals are kept as their words: both programs spell the same words, so they are never evaluated.
-/
import Idealize.ShloMosaic.PureOps.Ideal
import Idealize.ShloMosaic.Lib.ValueIdx

noncomputable section

namespace PnnSpec

open Idealize.ShloMosaic Idealize.ShloMosaic.ValueIdx
open scoped BigOperators

/-- The inverter response `0.104 - 0.899 · tanh ((x + 0.056) · 3.858)`, the four literals as their f32 words. -/
def inv (x : EReal) : EReal :=
  Ideal.ofBits .f32 0x3DD4FDF4#32
    - Ideal.ofBits .f32 0x3F6624DD#32 * Ideal.tanh ((x + Ideal.ofBits .f32 0x3D656042#32) * Ideal.ofBits .f32 0x4076E979#32)

/-- The output response `0.134 + 0.962 · tanh ((z - 0.183) · 24.1)`, the four literals as their f32 words. -/
def act (z : EReal) : EReal :=
  Ideal.ofBits .f32 0x3E09374C#32
    + Ideal.ofBits .f32 0x3F7645A2#32 * Ideal.tanh ((z - Ideal.ofBits .f32 0x3E3B645A#32) * Ideal.ofBits .f32 0x41C0CCCD#32)

/-- The augmented row: columns below 4096 are the input's, column 4096 is the word of `1.0`, column 4097 the
    word of `0.0`. -/
def aug (a : (⟨2, ![8192, 4096]⟩ : Shape).Idx → EReal) (r : Fin 8192) (k : Fin 4098) : EReal :=
  if h : k.val < 4096 then a (ix2 r ⟨k.val, h⟩)
  else if k.val = 4096 then Ideal.ofBits .f32 0x3F800000#32 else Ideal.ofBits .f32 0x00000000#32

/-- The pre-activation of output `j` on row `r`: the direct branch plus the inverted branch, each summed over
    the 4098 augmented columns. -/
def pre (a : (⟨2, ![8192, 4096]⟩ : Shape).Idx → EReal) (Wp Wn : (⟨2, ![4096, 4098]⟩ : Shape).Idx → EReal)
    (r : Fin 8192) (j : Fin 4096) : EReal :=
  (∑ k : Fin 4098, aug a r k * Wp (ix2 j k)) + (∑ k : Fin 4098, inv (aug a r k) * Wn (ix2 j k))

/-- The whole result array, index by index. -/
def G (a : (⟨2, ![8192, 4096]⟩ : Shape).Idx → EReal) (Wp Wn : (⟨2, ![4096, 4098]⟩ : Shape).Idx → EReal) :
    (⟨2, ![8192, 4096]⟩ : Shape).Idx → EReal :=
  fun i => act (pre a Wp Wn (i 0) (i 1))

end PnnSpec

end
-- ==== Proof.KIPayload.lean ====
/-
  The three pure values the kernel body stores, read at one index, at the ideal values.

  The first is the zero the accumulator starts from. The second is the accumulator plus two contractions over the
  block's 1408 columns: the activations against the first weight block, and the inverter response of the activations
  against the second weight block. The third is the output response of the accumulator. Every elementwise operation
  reads through an index; an identity shape cast is the identity; a matrix product into the zero constant, read at
  row `p` and column `q`, is the sum over the one contraction coordinate `kk` of the left operand at `(p, kk)` times
  the right operand at `(kk, q)`. The eight float literals stay as their words and are never evaluated; only the
  zero word is, to `0`.
-/
import proofs.«125127_j40080634807072_1_alg».proof.Proof.Gen.KernelIdeal.Skeleton
import proofs.«125127_j40080634807072_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The hyperbolic tangent of a vector at an index is the hyperbolic tangent of the element. -/
theorem tanh_apply {s : Shape} {φ : FTy} (a : FVec Ideal s φ) (i : s.Idx) : tanh a i = Ideal.tanh (a i) := rfl

/-! ## The contraction's operand indices -/

/-- The left operand's row is the output's row. -/
theorem lhs_row (i : S1024x512.Idx) (k : dot_S1024x1408_S1408x512_S1024x512_1_0_0_1_n_n.contr.Idx) :
    (dot_S1024x1408_S1408x512_S1024x512_1_0_0_1_n_n.lhsIdx i k 0).val = (i 0).val := by
  unfold DotDims.lhsIdx
  rw [dif_neg (show ¬(0 : Fin S1024x1408.rank) ∈ dot_S1024x1408_S1408x512_S1024x512_1_0_0_1_n_n.lhsBatch by decide),
    dif_pos (show (0 : Fin S1024x1408.rank) ∈ dot_S1024x1408_S1408x512_S1024x512_1_0_0_1_n_n.lhsNonContracting by decide)]
  rfl

/-- The left operand's column is the contraction coordinate. -/
theorem lhs_col (i : S1024x512.Idx) (k : dot_S1024x1408_S1408x512_S1024x512_1_0_0_1_n_n.contr.Idx) :
    (dot_S1024x1408_S1408x512_S1024x512_1_0_0_1_n_n.lhsIdx i k 1).val = (k ⟨0, by decide⟩).val :=
  dot_S1024x1408_S1408x512_S1024x512_1_0_0_1_n_n.lhsIdx_val_of_single rfl i k

/-- The right operand's row is the contraction coordinate. -/
theorem rhs_row (i : S1024x512.Idx) (k : dot_S1024x1408_S1408x512_S1024x512_1_0_0_1_n_n.contr.Idx) :
    (dot_S1024x1408_S1408x512_S1024x512_1_0_0_1_n_n.rhsIdx i k 0).val = (k ⟨0, by decide⟩).val :=
  dot_S1024x1408_S1408x512_S1024x512_1_0_0_1_n_n.rhsIdx_val_of_single rfl i k

/-- The right operand's column is the output's column. -/
theorem rhs_col (i : S1024x512.Idx) (k : dot_S1024x1408_S1408x512_S1024x512_1_0_0_1_n_n.contr.Idx) :
    (dot_S1024x1408_S1408x512_S1024x512_1_0_0_1_n_n.rhsIdx i k 1).val = (i 1).val := by
  unfold DotDims.rhsIdx
  rw [dif_neg (show ¬(1 : Fin S1408x512.rank) ∈ dot_S1024x1408_S1408x512_S1024x512_1_0_0_1_n_n.rhsBatch by decide),
    dif_pos (show (1 : Fin S1408x512.rank) ∈ dot_S1024x1408_S1408x512_S1024x512_1_0_0_1_n_n.rhsNonContracting by decide)]
  rfl

/-- The contraction's sum over its one-axis index set is the sum over the 1408 columns of the left operand at
    `(p, kk)` times the right operand at `(kk, q)`. -/
theorem contr_sum (lhs : S1024x1408.Idx → EReal) (rhs : S1408x512.Idx → EReal) (p : Fin 1024) (q : Fin 512) :
    (∑ k : dot_S1024x1408_S1408x512_S1024x512_1_0_0_1_n_n.contr.Idx,
        lhs (dot_S1024x1408_S1408x512_S1024x512_1_0_0_1_n_n.lhsIdx (ix2 p q) k)
          * rhs (dot_S1024x1408_S1408x512_S1024x512_1_0_0_1_n_n.rhsIdx (ix2 p q) k))
      = ∑ kk : Fin 1408, lhs (ix2 p kk) * rhs (ix2 kk q) := by
  rw [← Equiv.sum_comp (contrEquiv1 dot_S1024x1408_S1408x512_S1024x512_1_0_0_1_n_n 1408 rfl rfl).symm]
  refine Finset.sum_congr rfl fun kk _ => ?_
  have hk := contrEquiv1_symm_val dot_S1024x1408_S1408x512_S1024x512_1_0_0_1_n_n 1408 rfl rfl kk
  have el : dot_S1024x1408_S1408x512_S1024x512_1_0_0_1_n_n.lhsIdx (ix2 p q)
      ((contrEquiv1 dot_S1024x1408_S1408x512_S1024x512_1_0_0_1_n_n 1408 rfl rfl).symm kk) = ix2 p kk :=
    funext fun a => Fin.ext (by
      match a with
      | ⟨0, _⟩ => exact lhs_row _ _
      | ⟨1, _⟩ => exact (lhs_col _ _).trans hk)
  have er : dot_S1024x1408_S1408x512_S1024x512_1_0_0_1_n_n.rhsIdx (ix2 p q)
      ((contrEquiv1 dot_S1024x1408_S1408x512_S1024x512_1_0_0_1_n_n 1408 rfl rfl).symm kk) = ix2 kk q :=
    funext fun a => Fin.ext (by
      match a with
      | ⟨0, _⟩ => exact (rhs_row _ _).trans hk
      | ⟨1, _⟩ => exact rhs_col _ _)
  rw [el, er]

/-- The matrix product into the zero constant, read at `(p, q)`. -/
theorem matmul_zero_apply (lhs : FVec Ideal S1024x1408 .bf16) (rhs : FVec Ideal S1408x512 .bf16)
    (p : Fin 1024) (q : Fin 512) :
    matmul dot_S1024x1408_S1408x512_S1024x512_1_0_0_1_n_n none lhs rhs
        (constant (F := Ideal) S1024x512 .f32 0x00000000#32) (ix2 p q)
      = ∑ kk : Fin 1408, lhs (ix2 p kk) * rhs (ix2 kk q) :=
  (Ideal.matmul_constant_zero_apply dot_S1024x1408_S1408x512_S1024x512_1_0_0_1_n_n none lhs rhs (ix2 p q)).trans
    (contr_sum lhs rhs p q)

/-! ## The three values at an index -/

/-- The accumulator's start: the broadcast of the zero word. -/
theorem pay1_apply (p : Fin 1024) (q : Fin 512) : k0_pay1 (F := Ideal) (ix2 p q) = 0 := by
  unfold k0_pay1
  simp only [shapeCast_self, broadcast_apply, Ideal.ofBits_def, Ideal.ofBits_zero_f32]

/-- One accumulation step: the accumulator plus the direct contraction plus the inverted contraction over the
    block's 1408 columns. -/
theorem pay2_apply (v3 : Vec Ideal S1024x1408 .bf16) (v16 v18 : Vec Ideal S1408x512 .bf16)
    (v20 : Vec Ideal S1024x512 .f32) (p : Fin 1024) (q : Fin 512) :
    k0_pay2 v3 v16 v18 v20 (ix2 p q)
      = v20 (ix2 p q) + ((∑ kk : Fin 1408, v3 (ix2 p kk) * v16 (ix2 kk q))
          + (∑ kk : Fin 1408, PnnSpec.inv (v3 (ix2 p kk)) * v18 (ix2 kk q))) := by
  unfold k0_pay2
  simp only [shapeCast_self, addf_apply, matmul_zero_apply]
  rfl

/-- The result: the output response of the accumulator. -/
theorem pay3_apply (v31 : Vec Ideal S1024x512 .f32) (p : Fin 1024) (q : Fin 512) :
    k0_pay3 v31 (ix2 p q) = PnnSpec.act (v31 (ix2 p q)) := by
  unfold k0_pay3
  rfl

end Cert.KernelIdeal.Payload

end
-- ==== Proof.SumAlgebra.lean ====
/-
  Summation algebra on the extended reals for a contraction axis padded from 4098 to 4224 = 3 · 1408 columns.

  The extended reals are a commutative monoid under addition and a commutative monoid with zero under
  multiplication (`x * 0 = 0` for every `x`, the infinities included). Hence a finite sum may be cut into
  consecutive blocks and re-associated freely, and columns on which one factor of every product is zero
  contribute nothing. No finiteness of any entry is needed.
-/
import proofs.«125127_j40080634807072_1_alg».proof.Proof.Spec

noncomputable section

namespace PnnSpec

open Idealize.ShloMosaic Idealize.ShloMosaic.ValueIdx
open scoped BigOperators

/-- A sum over 4224 columns is the sum of its three consecutive blocks of 1408 columns. -/
theorem blocked_sum (f : Fin 4224 → EReal) :
    (∑ k : Fin 4224, f k)
      = ((∑ q : Fin 1408, f ⟨0 * 1408 + q.val, by omega⟩)
          + (∑ q : Fin 1408, f ⟨1 * 1408 + q.val, by omega⟩))
        + (∑ q : Fin 1408, f ⟨2 * 1408 + q.val, by omega⟩) := by
  -- 4224 = 1408 + 1408 + 1408, so the index type splits twice as a sum of two index types
  have h : (∑ k : Fin 4224, f k)
      = ∑ k : Fin (1408 + 1408 + 1408), f ⟨k.val, by have := k.isLt; omega⟩ := rfl
  rw [h, Fin.sum_univ_add, Fin.sum_univ_add]
  refine congrArg₂ (· + ·) (congrArg₂ (· + ·) ?_ ?_) ?_ <;>
    refine Finset.sum_congr rfl (fun q _ => congrArg f (Fin.ext ?_)) <;>
    simp only [Fin.coe_castAdd, Fin.coe_natAdd] <;> omega

/-- A sum over 4224 columns whose last 126 terms vanish is the sum of its first 4098 terms. -/
theorem padded_sum (f : Fin 4224 → EReal) (g : Fin 4098 → EReal)
    (h1 : ∀ (k : Fin 4224) (h : k.val < 4098), f k = g ⟨k.val, h⟩)
    (h0 : ∀ k : Fin 4224, 4098 ≤ k.val → f k = 0) :
    (∑ k : Fin 4224, f k) = ∑ k : Fin 4098, g k := by
  -- 4224 = 4098 + 126: the first summand is the sum of `g`, the second is a sum of zeros
  have h : (∑ k : Fin 4224, f k)
      = ∑ k : Fin (4098 + 126), f ⟨k.val, by have := k.isLt; omega⟩ := rfl
  rw [h, Fin.sum_univ_add]
  have hz : (∑ i : Fin 126, f ⟨(Fin.natAdd 4098 i).val, by
      have := (Fin.natAdd 4098 i).isLt; omega⟩) = 0 :=
    Finset.sum_eq_zero (fun i _ => h0 _ (by simp only [Fin.coe_natAdd]; omega))
  rw [hz, add_zero]
  exact Finset.sum_congr rfl (fun i _ => h1 _ i.isLt)

/-- The contribution of block `b` (columns `b · 1408 … b · 1408 + 1407`) to both branches: the direct products
    plus the inverted products. -/
def blockTerm (A P N : Fin 4224 → EReal) (b : ℕ) (hb : b < 3) : EReal :=
  (∑ q : Fin 1408, A ⟨b * 1408 + q.val, by omega⟩ * P ⟨b * 1408 + q.val, by omega⟩)
    + (∑ q : Fin 1408, inv (A ⟨b * 1408 + q.val, by omega⟩) * N ⟨b * 1408 + q.val, by omega⟩)

/-- Accumulating the three block contributions in order into a zero start gives the two full sums. -/
theorem accumulate_eq (A P N : Fin 4224 → EReal) :
    ((0 + blockTerm A P N 0 (by omega)) + blockTerm A P N 1 (by omega)) + blockTerm A P N 2 (by omega)
      = (∑ k : Fin 4224, A k * P k) + (∑ k : Fin 4224, inv (A k) * N k) := by
  rw [blocked_sum (fun k => A k * P k), blocked_sum (fun k => inv (A k) * N k)]
  simp only [blockTerm, zero_add]
  ac_rfl

/-- With activations and weights extended by zeros on the 126 padding columns, the two sums over the padded
    axis are the pre-activation of the specification: on a padding column the products are `0 * 0` and
    `inv 0 * 0`, both zero. -/
theorem padded_pre (a : (⟨2, ![8192, 4096]⟩ : Shape).Idx → EReal)
    (Wp Wn : (⟨2, ![4096, 4098]⟩ : Shape).Idx → EReal) (r : Fin 8192) (j : Fin 4096)
    (A P N : Fin 4224 → EReal)
    (hA : ∀ (k : Fin 4224), A k = if h : k.val < 4098 then aug a r ⟨k.val, h⟩ else 0)
    (hP : ∀ (k : Fin 4224), P k = if h : k.val < 4098 then Wp (ix2 j ⟨k.val, h⟩) else 0)
    (hN : ∀ (k : Fin 4224), N k = if h : k.val < 4098 then Wn (ix2 j ⟨k.val, h⟩) else 0) :
    (∑ k : Fin 4224, A k * P k) + (∑ k : Fin 4224, inv (A k) * N k) = pre a Wp Wn r j := by
  unfold pre
  congr 1
  · refine padded_sum _ (fun k => aug a r k * Wp (ix2 j k)) (fun k h => ?_) (fun k h => ?_)
    · rw [hA k, hP k, dif_pos h, dif_pos h]
    · rw [hP k, dif_neg (by omega), mul_zero]
  · refine padded_sum _ (fun k => inv (aug a r k) * Wn (ix2 j k)) (fun k h => ?_) (fun k h => ?_)
    · rw [hA k, hN k, dif_pos h, dif_pos h]
    · rw [hN k, dif_neg (by omega), mul_zero]

/-- The blockwise accumulation over the padded axis computes the pre-activation of the specification. -/
theorem kernel_pre (a : (⟨2, ![8192, 4096]⟩ : Shape).Idx → EReal)
    (Wp Wn : (⟨2, ![4096, 4098]⟩ : Shape).Idx → EReal) (r : Fin 8192) (j : Fin 4096)
    (A P N : Fin 4224 → EReal)
    (hA : ∀ (k : Fin 4224), A k = if h : k.val < 4098 then aug a r ⟨k.val, h⟩ else 0)
    (hP : ∀ (k : Fin 4224), P k = if h : k.val < 4098 then Wp (ix2 j ⟨k.val, h⟩) else 0)
    (hN : ∀ (k : Fin 4224), N k = if h : k.val < 4098 then Wn (ix2 j ⟨k.val, h⟩) else 0) :
    ((0 + blockTerm A P N 0 (by omega)) + blockTerm A P N 1 (by omega)) + blockTerm A P N 2 (by omega)
      = pre a Wp Wn r j := by
  rw [accumulate_eq, padded_pre a Wp Wn r j A P N hA hP hN]

end PnnSpec

end
-- ==== Proof.StraightThrough.lean ====
/-
  The straight-through identity in the reference, and what it does to the two weight arrays.

  The reference forms `soft = arg1 · arg2`, `hard = (|soft| < 0.01 ? 0 : soft)`, and then `soft + (hard - soft)`.
  On the extended reals `x + (y - x) = y` can fail at an infinite `x`; it holds when `x` is a real number and `y` is
  `0` or `x`, the two values the selection can take. With real weight inputs the product `soft` is real, so the sum is
  `hard`, and every later operation of the reference that reads the sum reads `hard`.
-/
import proofs.«125127_j40080634807072_1_alg».proof.Proof.Gen.ReferenceIdeal.Read
import Idealize.ShloMosaic.Lib.ValueIdx
import Idealize.ShloMosaic.PureOps.Ideal.Laws

noncomputable section

namespace Cert.Proof.StraightThrough

open Cert.ReferenceIdeal Cert.ReferenceIdeal.Gen Cert.ReferenceIdeal.Read
open Idealize.ShloMosaic Idealize.ShloMosaic.ValueIdx Idealize.ShloMosaic.StableHlo

/-- `x + (y - x) = y` for a real `x` and `y` either `0` or `x`. -/
theorem add_sub_cancel_real (r : ℝ) (y : EReal) (hy : y = 0 ∨ y = (r : EReal)) :
    (r : EReal) + (y - (r : EReal)) = y := by
  rcases hy with rfl | rfl
  · rw [zero_sub, ← EReal.coe_neg, ← EReal.coe_add, add_neg_cancel, EReal.coe_zero]
  · rw [← EReal.coe_sub, ← EReal.coe_add, sub_self, add_zero]

/-- With real weight inputs the reference's `soft + (hard - soft)` is `hard`. -/
theorem v6_eq_v4 (x1 x2 : (⟨S4096x4098, .f32⟩ : BufTy).Contents (Elt Ideal))
    (h1 : ∀ i, ∃ r : ℝ, x1 i = (r : EReal)) (h2 : ∀ i, ∃ r : ℝ, x2 i = (r : EReal)) :
    Read.val_main_v6 (F := Ideal) x1 x2 = Read.val_main_v4 (F := Ideal) x1 x2 := by
  funext i
  obtain ⟨r1, e1⟩ := h1 i
  obtain ⟨r2, e2⟩ := h2 i
  have hv0 : Read.val_main_v0 (F := Ideal) x1 x2 i = ((r1 * r2 : ℝ) : EReal) := by
    rw [Read.val_main_v0_apply]
    show x1 i * x2 i = _
    rw [e1, e2, EReal.coe_mul]
  rw [Read.val_main_v6_apply, Read.val_main_v5_apply]
  show Read.val_main_v0 (F := Ideal) x1 x2 i + (Read.val_main_v4 (F := Ideal) x1 x2 i - Read.val_main_v0 (F := Ideal) x1 x2 i)
    = Read.val_main_v4 (F := Ideal) x1 x2 i
  rw [hv0]
  refine add_sub_cancel_real _ _ ?_
  rw [Read.val_main_v4_apply]
  by_cases hb : Read.val_main_v3 (F := Ideal) x1 x2 i = 1#1
  · left
    rw [hb, select_one, Read.val_main_call0_v1_apply, Read.val_main_call0_v0_apply, Read.val_main_cst_0_apply]
    exact Ideal.ofBits_zero_f32
  · right
    rw [eq_zero_of_ne_one hb, select_zero, hv0]

/-- `hard` written out over the two weight inputs: the product where its absolute value reaches the threshold, `0`
    below it. True at every instance, by unfolding. -/
theorem v4_eq {F : FTy → Type} [FloatOps F] (x1 x2 : (⟨S4096x4098, .f32⟩ : BufTy).Contents (Elt F)) :
    Read.val_main_v4 (F := F) x1 x2 =
      select
        (cmpf .olt (Host.absf (mulf x1 x2))
          (broadcastInDim S4096x4098 ![] bcast_S_S4096x4098 (constant (F := F) S_ .f32 0x3C23D70A#32)))
        (broadcastInDim S4096x4098 ![] bcast_S_S4096x4098 (id (constant (F := F) S_ .f32 0x00000000#32)))
        (mulf x1 x2) := rfl

/-- The reference's weight array of the direct branch is the normalized magnitude of `hard` where `hard ≥ 0`. -/
theorem v30_eq (x1 x2 : (⟨S4096x4098, .f32⟩ : BufTy).Contents (Elt Ideal))
    (h1 : ∀ i, ∃ r : ℝ, x1 i = (r : EReal)) (h2 : ∀ i, ∃ r : ℝ, x2 i = (r : EReal)) :
    Read.val_main_v30 (F := Ideal) x1 x2 =
      mulf
        (Host.divf (Host.absf (Read.val_main_v4 (F := Ideal) x1 x2))
          (broadcastInDim S4096x4098 ![0, 1] bcast_S4096x1_S4096x4098_0_1
            (broadcastInDim S4096x1 ![0] bcast_S4096_S4096x1_0
              (Host.reduceAdd (Host.absf (Read.val_main_v4 (F := Ideal) x1 x2)) (constant (F := Ideal) S_ .f32 0x00000000#32)
                reducesTo_S4096x4098_S4096_d1 h_S_))))
        (uitofp (F := Ideal) .f32
          (cmpf .oge (Read.val_main_v4 (F := Ideal) x1 x2)
            (broadcastInDim S4096x4098 ![] bcast_S_S4096x4098 (constant (F := Ideal) S_ .f32 0x00000000#32)))) := by
  unfold Read.val_main_v30 Read.val_main_v11 Read.val_main_v26 Read.val_main_v25 Read.val_main_v10 Read.val_main_v9
    Read.val_main_v8 Read.val_main_v7 Read.val_main_v24 Read.val_main_cst_8 Read.val_main_cst_1
  rw [v6_eq_v4 x1 x2 h1 h2]

/-- The reference's weight array of the inverted branch is the normalized magnitude of `hard` where `hard < 0`. -/
theorem v33_eq (x1 x2 : (⟨S4096x4098, .f32⟩ : BufTy).Contents (Elt Ideal))
    (h1 : ∀ i, ∃ r : ℝ, x1 i = (r : EReal)) (h2 : ∀ i, ∃ r : ℝ, x2 i = (r : EReal)) :
    Read.val_main_v33 (F := Ideal) x1 x2 =
      mulf
        (Host.divf (Host.absf (Read.val_main_v4 (F := Ideal) x1 x2))
          (broadcastInDim S4096x4098 ![0, 1] bcast_S4096x1_S4096x4098_0_1
            (broadcastInDim S4096x1 ![0] bcast_S4096_S4096x1_0
              (Host.reduceAdd (Host.absf (Read.val_main_v4 (F := Ideal) x1 x2)) (constant (F := Ideal) S_ .f32 0x00000000#32)
                reducesTo_S4096x4098_S4096_d1 h_S_))))
        (uitofp (F := Ideal) .f32
          (cmpf .olt (Read.val_main_v4 (F := Ideal) x1 x2)
            (broadcastInDim S4096x4098 ![] bcast_S_S4096x4098 (constant (F := Ideal) S_ .f32 0x00000000#32)))) := by
  unfold Read.val_main_v33 Read.val_main_v11 Read.val_main_v29 Read.val_main_v28 Read.val_main_v10 Read.val_main_v9
    Read.val_main_v8 Read.val_main_v7 Read.val_main_v27 Read.val_main_cst_9 Read.val_main_cst_1
  rw [v6_eq_v4 x1 x2 h1 h2]

/-- The same, with `hard` written out over the two weight inputs: the direct branch's weight array. -/
theorem v30_eq_inputs (x1 x2 : (⟨S4096x4098, .f32⟩ : BufTy).Contents (Elt Ideal))
    (h1 : ∀ i, ∃ r : ℝ, x1 i = (r : EReal)) (h2 : ∀ i, ∃ r : ℝ, x2 i = (r : EReal)) :
    Read.val_main_v30 (F := Ideal) x1 x2 =
      mulf
        (Host.divf
          (Host.absf
            (select
              (cmpf .olt (Host.absf (mulf x1 x2))
                (broadcastInDim S4096x4098 ![] bcast_S_S4096x4098 (constant (F := Ideal) S_ .f32 0x3C23D70A#32)))
              (broadcastInDim S4096x4098 ![] bcast_S_S4096x4098 (id (constant (F := Ideal) S_ .f32 0x00000000#32)))
              (mulf x1 x2)))
          (broadcastInDim S4096x4098 ![0, 1] bcast_S4096x1_S4096x4098_0_1
            (broadcastInDim S4096x1 ![0] bcast_S4096_S4096x1_0
              (Host.reduceAdd
                (Host.absf
                  (select
                    (cmpf .olt (Host.absf (mulf x1 x2))
                      (broadcastInDim S4096x4098 ![] bcast_S_S4096x4098 (constant (F := Ideal) S_ .f32 0x3C23D70A#32)))
                    (broadcastInDim S4096x4098 ![] bcast_S_S4096x4098 (id (constant (F := Ideal) S_ .f32 0x00000000#32)))
                    (mulf x1 x2)))
                (constant (F := Ideal) S_ .f32 0x00000000#32) reducesTo_S4096x4098_S4096_d1 h_S_))))
        (uitofp (F := Ideal) .f32
          (cmpf .oge
            (select
              (cmpf .olt (Host.absf (mulf x1 x2))
                (broadcastInDim S4096x4098 ![] bcast_S_S4096x4098 (constant (F := Ideal) S_ .f32 0x3C23D70A#32)))
              (broadcastInDim S4096x4098 ![] bcast_S_S4096x4098 (id (constant (F := Ideal) S_ .f32 0x00000000#32)))
              (mulf x1 x2))
            (broadcastInDim S4096x4098 ![] bcast_S_S4096x4098 (constant (F := Ideal) S_ .f32 0x00000000#32)))) := by
  rw [v30_eq x1 x2 h1 h2, v4_eq]

/-- The same, with `hard` written out over the two weight inputs: the inverted branch's weight array. -/
theorem v33_eq_inputs (x1 x2 : (⟨S4096x4098, .f32⟩ : BufTy).Contents (Elt Ideal))
    (h1 : ∀ i, ∃ r : ℝ, x1 i = (r : EReal)) (h2 : ∀ i, ∃ r : ℝ, x2 i = (r : EReal)) :
    Read.val_main_v33 (F := Ideal) x1 x2 =
      mulf
        (Host.divf
          (Host.absf
            (select
              (cmpf .olt (Host.absf (mulf x1 x2))
                (broadcastInDim S4096x4098 ![] bcast_S_S4096x4098 (constant (F := Ideal) S_ .f32 0x3C23D70A#32)))
              (broadcastInDim S4096x4098 ![] bcast_S_S4096x4098 (id (constant (F := Ideal) S_ .f32 0x00000000#32)))
              (mulf x1 x2)))
          (broadcastInDim S4096x4098 ![0, 1] bcast_S4096x1_S4096x4098_0_1
            (broadcastInDim S4096x1 ![0] bcast_S4096_S4096x1_0
              (Host.reduceAdd
                (Host.absf
                  (select
                    (cmpf .olt (Host.absf (mulf x1 x2))
                      (broadcastInDim S4096x4098 ![] bcast_S_S4096x4098 (constant (F := Ideal) S_ .f32 0x3C23D70A#32)))
                    (broadcastInDim S4096x4098 ![] bcast_S_S4096x4098 (id (constant (F := Ideal) S_ .f32 0x00000000#32)))
                    (mulf x1 x2)))
                (constant (F := Ideal) S_ .f32 0x00000000#32) reducesTo_S4096x4098_S4096_d1 h_S_))))
        (uitofp (F := Ideal) .f32
          (cmpf .olt
            (select
              (cmpf .olt (Host.absf (mulf x1 x2))
                (broadcastInDim S4096x4098 ![] bcast_S_S4096x4098 (constant (F := Ideal) S_ .f32 0x3C23D70A#32)))
              (broadcastInDim S4096x4098 ![] bcast_S_S4096x4098 (id (constant (F := Ideal) S_ .f32 0x00000000#32)))
              (mulf x1 x2))
            (broadcastInDim S4096x4098 ![] bcast_S_S4096x4098 (constant (F := Ideal) S_ .f32 0x00000000#32)))) := by
  rw [v33_eq x1 x2 h1 h2, v4_eq]

end Cert.Proof.StraightThrough

end
-- ==== Proof.KIHost.lean ====
/-
  The host operations the idealized kernel program runs before its region, read as functions of the three argument
  arrays.

  From the two weight inputs the program forms `soft = x1 · x2` and `hard = (|soft| < 0.01 ? 0 : soft)`, normalizes
  `|hard|` by its row sums, and splits the result by the sign of `hard` into the direct branch's weights (`hard ≥ 0`)
  and the inverted branch's (`hard < 0`). Each weight array is padded by 126 zero columns, transposed, and narrowed
  (the narrowing is the identity on the extended reals). The activation array gets a column of ones, a column of
  zeros and 126 more zero columns appended, and is narrowed likewise.
-/
import proofs.«125127_j40080634807072_1_alg».proof.Proof.KIBase
import proofs.«125127_j40080634807072_1_alg».proof.Proof.Spec
import proofs.«125127_j40080634807072_1_alg».proof.Proof.StraightThrough
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

namespace Cert.KernelIdeal.HostRead

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-- The direct branch's weight array over the two weight inputs: `|hard|` over its row sum, where `hard ≥ 0`. -/
def WpK (x1 x2 : FVec Ideal S4096x4098 .f32) : FVec Ideal S4096x4098 .f32 :=
  mulf
    (Host.divf
      (Host.absf
        (select
          (cmpf .olt (Host.absf (mulf x1 x2))
            (broadcastInDim S4096x4098 ![] bcast_S_S4096x4098 (constant (F := Ideal) S_ .f32 0x3C23D70A#32)))
          (broadcastInDim S4096x4098 ![] bcast_S_S4096x4098 (id (constant (F := Ideal) S_ .f32 0x00000000#32)))
          (mulf x1 x2)))
      (broadcastInDim S4096x4098 ![0, 1] bcast_S4096x1_S4096x4098_0_1
        (broadcastInDim S4096x1 ![0] bcast_S4096_S4096x1_0
          (Host.reduceAdd
            (Host.absf
              (select
                (cmpf .olt (Host.absf (mulf x1 x2))
                  (broadcastInDim S4096x4098 ![] bcast_S_S4096x4098 (constant (F := Ideal) S_ .f32 0x3C23D70A#32)))
                (broadcastInDim S4096x4098 ![] bcast_S_S4096x4098 (id (constant (F := Ideal) S_ .f32 0x00000000#32)))
                (mulf x1 x2)))
            (constant (F := Ideal) S_ .f32 0x00000000#32) reducesTo_S4096x4098_S4096_d1 h_S_))))
    (uitofp (F := Ideal) .f32
      (cmpf .oge
        (select
          (cmpf .olt (Host.absf (mulf x1 x2))
            (broadcastInDim S4096x4098 ![] bcast_S_S4096x4098 (constant (F := Ideal) S_ .f32 0x3C23D70A#32)))
          (broadcastInDim S4096x4098 ![] bcast_S_S4096x4098 (id (constant (F := Ideal) S_ .f32 0x00000000#32)))
          (mulf x1 x2))
        (broadcastInDim S4096x4098 ![] bcast_S_S4096x4098 (constant (F := Ideal) S_ .f32 0x00000000#32))))

/-- The inverted branch's weight array over the two weight inputs: `|hard|` over its row sum, where `hard < 0`. -/
def WnK (x1 x2 : FVec Ideal S4096x4098 .f32) : FVec Ideal S4096x4098 .f32 :=
  mulf
    (Host.divf
      (Host.absf
        (select
          (cmpf .olt (Host.absf (mulf x1 x2))
            (broadcastInDim S4096x4098 ![] bcast_S_S4096x4098 (constant (F := Ideal) S_ .f32 0x3C23D70A#32)))
          (broadcastInDim S4096x4098 ![] bcast_S_S4096x4098 (id (constant (F := Ideal) S_ .f32 0x00000000#32)))
          (mulf x1 x2)))
      (broadcastInDim S4096x4098 ![0, 1] bcast_S4096x1_S4096x4098_0_1
        (broadcastInDim S4096x1 ![0] bcast_S4096_S4096x1_0
          (Host.reduceAdd
            (Host.absf
              (select
                (cmpf .olt (Host.absf (mulf x1 x2))
                  (broadcastInDim S4096x4098 ![] bcast_S_S4096x4098 (constant (F := Ideal) S_ .f32 0x3C23D70A#32)))
                (broadcastInDim S4096x4098 ![] bcast_S_S4096x4098 (id (constant (F := Ideal) S_ .f32 0x00000000#32)))
                (mulf x1 x2)))
            (constant (F := Ideal) S_ .f32 0x00000000#32) reducesTo_S4096x4098_S4096_d1 h_S_))))
    (uitofp (F := Ideal) .f32
      (cmpf .olt
        (select
          (cmpf .olt (Host.absf (mulf x1 x2))
            (broadcastInDim S4096x4098 ![] bcast_S_S4096x4098 (constant (F := Ideal) S_ .f32 0x3C23D70A#32)))
          (broadcastInDim S4096x4098 ![] bcast_S_S4096x4098 (id (constant (F := Ideal) S_ .f32 0x00000000#32)))
          (mulf x1 x2))
        (broadcastInDim S4096x4098 ![] bcast_S_S4096x4098 (constant (F := Ideal) S_ .f32 0x00000000#32))))

variable (m : (ℓ : Loc nD τ sig) → Buf (Elt Ideal) ℓ) (c : Dev nD)

/-- When the region is entered, the buffer of the direct branch's weights holds `WpK` of the two weight inputs. -/
theorem V_v16 : (V m c main_v16 : S4096x4098.Idx → EReal)
    = WpK (m ((c : Thread nD τ).loc main_arg1)) (m ((c : Thread nD τ).loc main_arg2)) := by
  dsimp only [V]
  simp only [hostAll, hostOps0, hostOps0_1, hostOps0_2, hostOps0_3, hostOps0_4, hostOps0_5, hostOps0_6,
    StableHlo.TRef.unary, StableHlo.TRef.binary, StableHlo.TRef.ternary,
    List.flatten_cons, List.flatten_nil, List.append_nil, List.cons_append, List.nil_append]
  after_results_simp
  rfl

/-- When the region is entered, the buffer of the inverted branch's weights holds `WnK` of the two weight inputs. -/
theorem V_v17 : (V m c main_v17 : S4096x4098.Idx → EReal)
    = WnK (m ((c : Thread nD τ).loc main_arg1)) (m ((c : Thread nD τ).loc main_arg2)) := by
  dsimp only [V]
  simp only [hostAll, hostOps0, hostOps0_1, hostOps0_2, hostOps0_3, hostOps0_4, hostOps0_5, hostOps0_6,
    StableHlo.TRef.unary, StableHlo.TRef.binary, StableHlo.TRef.ternary,
    List.flatten_cons, List.flatten_nil, List.append_nil, List.cons_append, List.nil_append]
  after_results_simp
  rfl

/-- With real weight inputs the reference's direct-branch weight array is `WpK`: its straight-through sum is `hard`,
    and from there on the two programs apply the same operations. -/
theorem WpK_ref (x1 x2 : FVec Ideal S4096x4098 .f32)
    (h1 : ∀ i, ∃ r : ℝ, x1 i = (r : EReal)) (h2 : ∀ i, ∃ r : ℝ, x2 i = (r : EReal)) :
    Cert.ReferenceIdeal.Read.val_main_v30 (F := Ideal) x1 x2 = WpK x1 x2 :=
  (Cert.Proof.StraightThrough.v30_eq_inputs x1 x2 h1 h2).trans rfl

/-- With real weight inputs the reference's inverted-branch weight array is `WnK`. -/
theorem WnK_ref (x1 x2 : FVec Ideal S4096x4098 .f32)
    (h1 : ∀ i, ∃ r : ℝ, x1 i = (r : EReal)) (h2 : ∀ i, ∃ r : ℝ, x2 i = (r : EReal)) :
    Cert.ReferenceIdeal.Read.val_main_v33 (F := Ideal) x1 x2 = WnK x1 x2 :=
  (Cert.Proof.StraightThrough.v33_eq_inputs x1 x2 h1 h2).trans rfl

/-! ## Padding, transposition and narrowing read at an index -/

/-- A weight array padded on the right by 126 columns of `z`'s one entry, transposed, and narrowed (the identity on the
    extended reals), read at row `k`, column `j`: the array at `(j, k)` while `k` is one of its 4098 columns, the padding
    value past them. -/
theorem padT_apply (W : FVec Ideal S4096x4098 .f32) (z : FVec Ideal S_ .f32) (k : Fin 4224) (j : Fin 4096) :
    (truncf .bf16
        (transpose S4224x4096 [1, 0]
          (pad S4096x4224 ![0, 0] ![0, 126] ![0, 0] W z
            pads_S4096x4098_S4096x4224_000_01260 h_S_)
          transposes_S4096x4224_S4224x4096_1_0)
        bitsLt_bf16_f32 : FVec Ideal S4224x4096 .bf16) (ix2 k j)
      = if h : k.val < 4098 then W (ix2 j ⟨k.val, h⟩) else z ix0 := by
  rw [truncf_apply]
  rw [transpose_apply [1, 0] _ transposes_S4096x4224_S4224x4096_1_0 (ix2 k j) (ix2 j k)
    (fun b => match b with | ⟨0, _⟩ => rfl | ⟨1, _⟩ => rfl)]
  by_cases h : k.val < 4098
  · rw [dif_pos h]
    exact pad_apply_of_inside _ _ _ W z pads_S4096x4098_S4096x4224_000_01260 h_S_ (ix2 j k) (ix2 j ⟨k.val, h⟩)
      (fun a => match a with
        | ⟨0, _⟩ => by show j.val = 0 + j.val * (0 + 1); omega
        | ⟨1, _⟩ => by show k.val = 0 + k.val * (0 + 1); omega)
  · rw [dif_neg h]
    refine (pad_apply_of_not_inside _ _ _ W z pads_S4096x4098_S4096x4224_000_01260 h_S_ (ix2 j k) (1 : Fin 2)
      (fun hin => h ?_)).trans (congrArg z (eq_ix0 _))
    have h3 : (k.val - 0) / (0 + 1) < 4098 := hin.2.2
    omega

/-- The padding value: the integer word `0` converted to a float is `0`. -/
theorem padZero : (sitofp (F := Ideal) .f32 (constantI S_ 32 0#32) : FVec Ideal S_ .f32) ix0 = 0 := by
  rw [sitofp_apply]
  show (((0#32 : BitVec 32).toInt : ℝ) : EReal) = 0
  simp

/-- When the region is entered, the direct branch's staged weights: `WpK` padded, transposed and narrowed. -/
theorem V_v21 : (V m c main_v21 : S4224x4096.Idx → EReal)
    = (let z : FVec Ideal S_ .f32 := sitofp (F := Ideal) .f32 (constantI S_ 32 0#32)
       (truncf .bf16
        (transpose S4224x4096 [1, 0]
          (pad S4096x4224 ![0, 0] ![0, 126] ![0, 0] (WpK (m ((c : Thread nD τ).loc main_arg1)) (m ((c : Thread nD τ).loc main_arg2))) z
            pads_S4096x4098_S4096x4224_000_01260 h_S_)
          transposes_S4096x4224_S4224x4096_1_0)
        bitsLt_bf16_f32 : FVec Ideal S4224x4096 .bf16)) := by
  dsimp only [V]
  simp only [hostAll, hostOps0, hostOps0_1, hostOps0_2, hostOps0_3, hostOps0_4, hostOps0_5, hostOps0_6,
    StableHlo.TRef.unary, StableHlo.TRef.binary, StableHlo.TRef.ternary,
    List.flatten_cons, List.flatten_nil, List.append_nil, List.cons_append, List.nil_append]
  after_results_simp
  rfl

/-- The direct branch's staged weights at row `k`, column `j`: `WpK` at `(j, k)` on the 4098 weight columns, `0` on the
    126 padding rows. -/
theorem V_v21_apply (k : Fin 4224) (j : Fin 4096) :
    (V m c main_v21 : S4224x4096.Idx → EReal) (ix2 k j)
      = if h : k.val < 4098 then WpK (m ((c : Thread nD τ).loc main_arg1)) (m ((c : Thread nD τ).loc main_arg2)) (ix2 j ⟨k.val, h⟩)
        else 0 := by
  rw [V_v21 m c]
  dsimp only
  rw [padT_apply, padZero]

/-- When the region is entered, the inverted branch's staged weights: `WnK` padded, transposed and narrowed. -/
theorem V_v23 : (V m c main_v23 : S4224x4096.Idx → EReal)
    = (let z : FVec Ideal S_ .f32 := sitofp (F := Ideal) .f32 (constantI S_ 32 0#32)
       (truncf .bf16
        (transpose S4224x4096 [1, 0]
          (pad S4096x4224 ![0, 0] ![0, 126] ![0, 0] (WnK (m ((c : Thread nD τ).loc main_arg1)) (m ((c : Thread nD τ).loc main_arg2))) z
            pads_S4096x4098_S4096x4224_000_01260 h_S_)
          transposes_S4096x4224_S4224x4096_1_0)
        bitsLt_bf16_f32 : FVec Ideal S4224x4096 .bf16)) := by
  dsimp only [V]
  simp only [hostAll, hostOps0, hostOps0_1, hostOps0_2, hostOps0_3, hostOps0_4, hostOps0_5, hostOps0_6,
    StableHlo.TRef.unary, StableHlo.TRef.binary, StableHlo.TRef.ternary,
    List.flatten_cons, List.flatten_nil, List.append_nil, List.cons_append, List.nil_append]
  after_results_simp
  rfl

/-- The inverted branch's staged weights at row `k`, column `j`: `WnK` at `(j, k)` on the 4098 weight columns, `0` on the
    126 padding rows. -/
theorem V_v23_apply (k : Fin 4224) (j : Fin 4096) :
    (V m c main_v23 : S4224x4096.Idx → EReal) (ix2 k j)
      = if h : k.val < 4098 then WnK (m ((c : Thread nD τ).loc main_arg1)) (m ((c : Thread nD τ).loc main_arg2)) (ix2 j ⟨k.val, h⟩)
        else 0 := by
  rw [V_v23 m c]
  dsimp only
  rw [padT_apply, padZero]

/-! ## The staged activations -/

/-- When the region is entered, the staged activations: the activation array with a column of ones, a column of zeros
    and 126 more columns of zeros appended, narrowed. -/
theorem V_v28 : (V m c main_v28 : S8192x4224.Idx → EReal)
    = (truncf .bf16
        (concatenate S8192x4224 1
          [⟨S8192x4096, (m ((c : Thread nD τ).loc main_arg0) : FVec Ideal S8192x4096 .f32)⟩,
           ⟨S8192x1, broadcastInDim S8192x1 ![] bcast_S_S8192x1 (constant (F := Ideal) S_ .f32 0x3F800000#32)⟩,
           ⟨S8192x1, broadcastInDim S8192x1 ![] bcast_S_S8192x1 (constant (F := Ideal) S_ .f32 0x00000000#32)⟩,
           ⟨S8192x126, broadcastInDim S8192x126 ![] bcast_S_S8192x126 (constant (F := Ideal) S_ .f32 0x00000000#32)⟩]
          concatenates_S8192x4096_S8192x1_S8192x1_S8192x126_S8192x4224_d1)
        bitsLt_bf16_f32 : FVec Ideal S8192x4224 .bf16) := by
  dsimp only [V]
  simp only [hostAll, hostOps0, hostOps0_1, hostOps0_2, hostOps0_3, hostOps0_4, hostOps0_5, hostOps0_6,
    StableHlo.TRef.unary, StableHlo.TRef.binary, StableHlo.TRef.ternary,
    List.flatten_cons, List.flatten_nil, List.append_nil, List.cons_append, List.nil_append]
  after_results_simp
  rfl

/-! Four pieces of widths 4096, 1, 1 and 126 laid side by side, read at row `r`, column `k`: the piece whose span of
columns holds `k`, at `k` less the widths before it. One lemma per piece. -/

theorem concat4_at0 {α : Type} (A : S8192x4096.Idx → α) (o z : S8192x1.Idx → α) (z' : S8192x126.Idx → α)
    (r : Fin 8192) (k : Fin 4224) (k' : Fin 4096) (hk : 0 + k'.val = k.val) :
    concatenate S8192x4224 1 [⟨S8192x4096, A⟩, ⟨S8192x1, o⟩, ⟨S8192x1, z⟩, ⟨S8192x126, z'⟩] concatenates_S8192x4096_S8192x1_S8192x1_S8192x126_S8192x4224_d1 (ix2 r k) = A (ix2 r k') :=
  concatenate_apply_piece (t := S8192x4224) 1 [⟨S8192x4096, A⟩, ⟨S8192x1, o⟩, ⟨S8192x1, z⟩, ⟨S8192x126, z'⟩] concatenates_S8192x4096_S8192x1_S8192x1_S8192x126_S8192x4224_d1 (ix2 r k) 0 (by simp) S8192x4096 A rfl rfl 0 rfl
    (ix2 r k') (fun b hb => match b with | ⟨0, _⟩ => rfl | ⟨1, _⟩ => absurd rfl hb) hk

theorem concat4_at1 {α : Type} (A : S8192x4096.Idx → α) (o z : S8192x1.Idx → α) (z' : S8192x126.Idx → α)
    (r : Fin 8192) (k : Fin 4224) (hk : 4096 + 0 = k.val) :
    concatenate S8192x4224 1 [⟨S8192x4096, A⟩, ⟨S8192x1, o⟩, ⟨S8192x1, z⟩, ⟨S8192x126, z'⟩] concatenates_S8192x4096_S8192x1_S8192x1_S8192x126_S8192x4224_d1 (ix2 r k) = o (ix2 r (0 : Fin 1)) :=
  concatenate_apply_piece (t := S8192x4224) 1 [⟨S8192x4096, A⟩, ⟨S8192x1, o⟩, ⟨S8192x1, z⟩, ⟨S8192x126, z'⟩] concatenates_S8192x4096_S8192x1_S8192x1_S8192x126_S8192x4224_d1 (ix2 r k) 1 (by simp) S8192x1 o rfl rfl 4096 rfl
    (ix2 r (0 : Fin 1)) (fun b hb => match b with | ⟨0, _⟩ => rfl | ⟨1, _⟩ => absurd rfl hb) hk

theorem concat4_at2 {α : Type} (A : S8192x4096.Idx → α) (o z : S8192x1.Idx → α) (z' : S8192x126.Idx → α)
    (r : Fin 8192) (k : Fin 4224) (hk : 4097 + 0 = k.val) :
    concatenate S8192x4224 1 [⟨S8192x4096, A⟩, ⟨S8192x1, o⟩, ⟨S8192x1, z⟩, ⟨S8192x126, z'⟩] concatenates_S8192x4096_S8192x1_S8192x1_S8192x126_S8192x4224_d1 (ix2 r k) = z (ix2 r (0 : Fin 1)) :=
  concatenate_apply_piece (t := S8192x4224) 1 [⟨S8192x4096, A⟩, ⟨S8192x1, o⟩, ⟨S8192x1, z⟩, ⟨S8192x126, z'⟩] concatenates_S8192x4096_S8192x1_S8192x1_S8192x126_S8192x4224_d1 (ix2 r k) 2 (by simp) S8192x1 z rfl rfl 4097 rfl
    (ix2 r (0 : Fin 1)) (fun b hb => match b with | ⟨0, _⟩ => rfl | ⟨1, _⟩ => absurd rfl hb) hk

theorem concat4_at3 {α : Type} (A : S8192x4096.Idx → α) (o z : S8192x1.Idx → α) (z' : S8192x126.Idx → α)
    (r : Fin 8192) (k : Fin 4224) (k' : Fin 126) (hk : 4098 + k'.val = k.val) :
    concatenate S8192x4224 1 [⟨S8192x4096, A⟩, ⟨S8192x1, o⟩, ⟨S8192x1, z⟩, ⟨S8192x126, z'⟩] concatenates_S8192x4096_S8192x1_S8192x1_S8192x126_S8192x4224_d1 (ix2 r k) = z' (ix2 r k') :=
  concatenate_apply_piece (t := S8192x4224) 1 [⟨S8192x4096, A⟩, ⟨S8192x1, o⟩, ⟨S8192x1, z⟩, ⟨S8192x126, z'⟩] concatenates_S8192x4096_S8192x1_S8192x1_S8192x126_S8192x4224_d1 (ix2 r k) 3 (by simp) S8192x126 z' rfl rfl 4098 rfl
    (ix2 r k') (fun b hb => match b with | ⟨0, _⟩ => rfl | ⟨1, _⟩ => absurd rfl hb) hk

/-- The concatenation at row `r`, column `k`: the augmented activation row on the first 4098 columns (the activation, then
    the word of `1.0`, then the word of `0.0`), and `0` on the 126 padding columns. -/
theorem concat_apply (A : FVec Ideal S8192x4096 .f32) (r : Fin 8192) (k : Fin 4224) :
    (truncf .bf16
        (concatenate S8192x4224 1
          [⟨S8192x4096, A⟩,
           ⟨S8192x1, broadcastInDim S8192x1 ![] bcast_S_S8192x1 (constant (F := Ideal) S_ .f32 0x3F800000#32)⟩,
           ⟨S8192x1, broadcastInDim S8192x1 ![] bcast_S_S8192x1 (constant (F := Ideal) S_ .f32 0x00000000#32)⟩,
           ⟨S8192x126, broadcastInDim S8192x126 ![] bcast_S_S8192x126 (constant (F := Ideal) S_ .f32 0x00000000#32)⟩]
          concatenates_S8192x4096_S8192x1_S8192x1_S8192x126_S8192x4224_d1)
        bitsLt_bf16_f32 : FVec Ideal S8192x4224 .bf16) (ix2 r k)
      = if h : k.val < 4098 then PnnSpec.aug A r ⟨k.val, h⟩ else 0 := by
  rw [truncf_apply]
  have hb1 : ∀ (w : BitVec 32) (i : S8192x1.Idx),
      broadcastInDim S8192x1 ![] bcast_S_S8192x1 (constant (F := Ideal) S_ .f32 w) i = Ideal.ofBits .f32 w := fun w i => by
    rw [broadcastInDim_apply _ bcast_S_S8192x1 _ i ix0 (fun a => a.elim0), constant_apply]
  have hb2 : ∀ (w : BitVec 32) (i : S8192x126.Idx),
      broadcastInDim S8192x126 ![] bcast_S_S8192x126 (constant (F := Ideal) S_ .f32 w) i = Ideal.ofBits .f32 w := fun w i => by
    rw [broadcastInDim_apply _ bcast_S_S8192x126 _ i ix0 (fun a => a.elim0), constant_apply]
  by_cases h1 : k.val < 4096
  · rw [dif_pos (by omega : k.val < 4098), concat4_at0 _ _ _ _ r k ⟨k.val, h1⟩ (by show 0 + k.val = k.val; omega)]
    unfold PnnSpec.aug; rw [dif_pos h1]
  · by_cases h2 : k.val = 4096
    · rw [dif_pos (by omega : k.val < 4098), concat4_at1 _ _ _ _ r k (by omega), hb1]
      unfold PnnSpec.aug; rw [dif_neg h1, if_pos h2]
    · by_cases h3 : k.val = 4097
      · rw [dif_pos (by omega : k.val < 4098), concat4_at2 _ _ _ _ r k (by omega), hb1]
        unfold PnnSpec.aug; rw [dif_neg h1, if_neg h2]
      · obtain ⟨k', hk'⟩ : ∃ k' : Fin 126, 4098 + k'.val = k.val :=
          ⟨⟨k.val - 4098, by have := k.isLt; omega⟩, by show 4098 + (k.val - 4098) = k.val; omega⟩
        rw [dif_neg (by omega : ¬k.val < 4098), concat4_at3 _ _ _ _ r k k' hk', hb2]
        exact Ideal.ofBits_zero_f32

/-- The staged activations at row `r`, column `k`: the augmented activation row on the first 4098 columns, `0` on the 126
    padding columns. -/
theorem V_v28_apply (r : Fin 8192) (k : Fin 4224) :
    (V m c main_v28 : S8192x4224.Idx → EReal) (ix2 r k)
      = if h : k.val < 4098 then PnnSpec.aug (m ((c : Thread nD τ).loc main_arg0)) r ⟨k.val, h⟩ else 0 := by
  rw [V_v28 m c]
  exact concat_apply _ r k

end Cert.KernelIdeal.HostRead

end
-- ==== Proof.KIValue.lean ====
/-
  The idealized kernel's result array. A store point writes, at entry (p, q) of its output block, the output response
  of the three contraction blocks' contributions added in order onto zero; each contribution is a block of the
  padded contraction axis; so the entry is the output response of the blocked sum over the padded axis of row r of
  the padded activations against column j of the two padded weight arrays, (r, j) the entry's place in the array.
  The padding columns carry zeros, so that blocked sum is the specification's pre-activation, and since the store
  points' blocks tile the array, the array ends as the specification's `G` of the input and the two weight arrays
  the host operations computed.
-/
import proofs.«125127_j40080634807072_1_alg».proof.Proof.KIBlocks
import proofs.«125127_j40080634807072_1_alg».proof.Proof.KIPayload
import proofs.«125127_j40080634807072_1_alg».proof.Proof.SumAlgebra
import proofs.«125127_j40080634807072_1_alg».proof.Proof.KIHost

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

open Cert.KernelIdeal.HostRead

variable (m : (ℓ : Loc nD τ sig) → Buf (Elt Ideal) ℓ) (ρ : Dev nD → PrngReg)

/-- Row `r` of the padded activations, as the region finds them. -/
def Arow (c : Dev nD) (r : Fin 8192) : Fin 4224 → EReal := fun k => (V m c main_v28 : S8192x4224.Idx → EReal) (ix2 r k)
/-- Column `j` of the first padded, transposed weight array, -/
def Pcol (c : Dev nD) (j : Fin 4096) : Fin 4224 → EReal := fun k => (V m c main_v21 : S4224x4096.Idx → EReal) (ix2 k j)
/-- and of the second. -/
def Ncol (c : Dev nD) (j : Fin 4096) : Fin 4224 → EReal := fun k => (V m c main_v23 : S4224x4096.Idx → EReal) (ix2 k j)

/-- The kernel's entry (r, j): the output response of the three blocks' contributions added in order onto zero. -/
def gk (c : Dev nD) (r : Fin 8192) (j : Fin 4096) : EReal :=
  PnnSpec.act (((0 + PnnSpec.blockTerm (Arow m c r) (Pcol m c j) (Ncol m c j) 0 (by omega))
    + PnnSpec.blockTerm (Arow m c r) (Pcol m c j) (Ncol m c j) 1 (by omega))
    + PnnSpec.blockTerm (Arow m c r) (Pcol m c j) (Ncol m c j) 2 (by omega))

/-- A contribution whose factors are a row's and two columns' entries on contraction block `b` is that block's term. -/
theorem blockTerm_of (A P N : Fin 4224 → EReal) (b : ℕ) (hb : b < 3) (f0 f1 f2 : Fin 1408 → EReal)
    (a0 : ∀ kk : Fin 1408, f0 kk = A ⟨b * 1408 + kk.val, by have := kk.isLt; omega⟩)
    (a1 : ∀ kk : Fin 1408, f1 kk = P ⟨b * 1408 + kk.val, by have := kk.isLt; omega⟩)
    (a2 : ∀ kk : Fin 1408, f2 kk = N ⟨b * 1408 + kk.val, by have := kk.isLt; omega⟩) :
    (∑ kk : Fin 1408, f0 kk * f1 kk) + (∑ kk : Fin 1408, PnnSpec.inv (f0 kk) * f2 kk) = PnnSpec.blockTerm A P N b hb := by
  unfold PnnSpec.blockTerm
  congr 1
  · exact Finset.sum_congr rfl (fun kk _ => by rw [a0 kk, a1 kk])
  · exact Finset.sum_congr rfl (fun kk _ => by rw [a0 kk, a2 kk])

/-- One point's contribution, read off its three blocks, is the contraction block of the point's last coordinate. -/
theorem term_eq (c : Dev nD) (s : Fin cfg0.N) (b : ℕ) (hb : b < 3) (hsb : s.val % 3 = b) (p : Fin 1024) (q : Fin 512)
    (r : Fin 8192) (j : Fin 4096) (hr : r.val = s.val / 24 * 1024 + p.val) (hj : j.val = s.val / 3 % 8 * 512 + q.val)
    (x0 : Vec Ideal S1024x1408 .bf16) (x1 x2 : Vec Ideal S1408x512 .bf16)
    (h0 : x0 = iblk m c 0 s) (h1 : x1 = iblk m c 1 s) (h2 : x2 = iblk m c 2 s) :
    (∑ kk : Fin 1408, x0 (ix2 p kk) * x1 (ix2 kk q)) + (∑ kk : Fin 1408, PnnSpec.inv (x0 (ix2 p kk)) * x2 (ix2 kk q))
    = PnnSpec.blockTerm (Arow m c r) (Pcol m c j) (Ncol m c j) b hb := by
  have a0 : ∀ kk : Fin 1408, x0 (ix2 p kk) = Arow m c r ⟨b * 1408 + kk.val, by have := kk.isLt; omega⟩ := fun kk => by
    rw [h0]; exact iblk0_apply m c s p kk r ⟨b * 1408 + kk.val, by have := kk.isLt; omega⟩ hr (by show b * 1408 + kk.val = _; rw [hsb])
  have a1 : ∀ kk : Fin 1408, x1 (ix2 kk q) = Pcol m c j ⟨b * 1408 + kk.val, by have := kk.isLt; omega⟩ := fun kk => by
    rw [h1]; exact iblk1_apply m c s kk q ⟨b * 1408 + kk.val, by have := kk.isLt; omega⟩ j (by show b * 1408 + kk.val = _; rw [hsb]) hj
  have a2 : ∀ kk : Fin 1408, x2 (ix2 kk q) = Ncol m c j ⟨b * 1408 + kk.val, by have := kk.isLt; omega⟩ := fun kk => by
    rw [h2]; exact iblk2_apply m c s kk q ⟨b * 1408 + kk.val, by have := kk.isLt; omega⟩ j (by show b * 1408 + kk.val = _; rw [hsb]) hj
  exact blockTerm_of (Arow m c r) (Pcol m c j) (Ncol m c j) b hb (fun kk => x0 (ix2 p kk)) (fun kk => x1 (ix2 kk q))
    (fun kk => x2 (ix2 kk q)) a0 a1 a2

/-- What a store point leaves at entry (p, q) of its output block is the kernel's entry at the block's place. -/
theorem out_entry (c : Dev nD) (t : Fin cfg0.N) (h2 : t.val % 3 = 2) (p : Fin 1024) (q : Fin 512)
    (r : Fin 8192) (j : Fin 4096) (hr : r.val = t.val / 24 * 1024 + p.val) (hj : j.val = t.val / 3 % 8 * 512 + q.val) :
    k0_pay3 (k0_pay2 (iblk m c 0 t) (iblk m c 1 t) (iblk m c 2 t) (k0_pay2 (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := Ideal))))) (ix2 p q) = gk m c r j := by
  have hN : cfg0.N = 192 := N_0
  have hlt := t.isLt
  rw [Payload.pay3_apply (k0_pay2 (iblk m c 0 t) (iblk m c 1 t) (iblk m c 2 t) (k0_pay2 (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := Ideal))))) p q]
  unfold gk
  refine congrArg PnnSpec.act ?_
  rw [Payload.pay2_apply (iblk m c 0 t) (iblk m c 1 t) (iblk m c 2 t) (k0_pay2 (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := Ideal)))) p q,
    Payload.pay2_apply (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := Ideal))) p q,
    Payload.pay2_apply (iblk m c 0 (prev2 t h2)) (iblk m c 1 (prev2 t h2)) (iblk m c 2 (prev2 t h2)) (k0_pay1 (F := Ideal)) p q,
    Payload.pay1_apply p q]
  rw [term_eq m c t 2 (by omega) h2 p q r j hr hj (iblk m c 0 t) (iblk m c 1 t) (iblk m c 2 t) rfl rfl rfl,
    term_eq m c (prev1 t h2) 1 (by omega) (by show (t.val - 1) % 3 = 1; omega) p q r j
      (by show r.val = (t.val - 1) / 24 * 1024 + p.val; omega) (by show j.val = (t.val - 1) / 3 % 8 * 512 + q.val; omega) (iblk m c 0 (prev1 t h2)) (iblk m c 1 (prev1 t h2)) (iblk m c 2 (prev1 t h2)) rfl rfl rfl,
    term_eq m c (prev2 t h2) 0 (by omega) (by show (t.val - 1 - 1) % 3 = 0; omega) p q r j
      (by show r.val = (t.val - 1 - 1) / 24 * 1024 + p.val; omega) (by show j.val = (t.val - 1 - 1) / 3 % 8 * 512 + q.val; omega) (iblk m c 0 (prev2 t h2)) (iblk m c 1 (prev2 t h2)) (iblk m c 2 (prev2 t h2)) rfl rfl rfl]

/-- The kernel's whole result, index by index. -/
def GK (c : Dev nD) : S8192x4096.Idx → EReal := fun i => gk m c (i 0) (i 1)

/-- WHAT A STORE POINT WRITES BACK is its block of `GK`. -/
theorem flushed_eq (c : Dev nD) (t : Fin cfg0.N) (hf : (cfg0.win 3).flush t = true) :
    (dats m 0 c).flushed 3 t = ((cfg0.win 3).blk t).view.read (Elt Ideal) (GK m c) := by
  have h2 : t.val % 3 = 2 := (flush0_3 t).mp hf
  obtain ⟨-, -, -, -, -, -, e0, e1⟩ := idx_facts t
  show (cfg0.win 3).cut (grid0.coords t) ((dats m 0 c).after 3 t) = _
  rw [after3, store_closed m c t h2]
  funext y
  obtain ⟨p, q, rfl⟩ : ∃ (p : Fin 1024) (q : Fin 512), y = ix2 p q := ⟨y 0, y 1, eq_ix2 y⟩
  show k0_pay3 (k0_pay2 (iblk m c 0 t) (iblk m c 1 t) (iblk m c 2 t) (k0_pay2 (iblk m c 0 (prev1 t h2)) (iblk m c 1 (prev1 t h2)) (iblk m c 2 (prev1 t h2)) (k0_pay2 (iblk m c 0 (prev2 t h2)) (iblk m c 1 (prev2 t h2)) (iblk m c 2 (prev2 t h2)) (k0_pay1 (F := Ideal))))) (ix2 p q) = GK m c (((cfg0.win 3).blk t).view.emb (ix2 p q))
  exact out_entry m c t h2 p q _ _
    (by show win0_3.index t (0 : Fin 2) * 1024 + 1 * p.val = _; omega)
    (by show win0_3.index t (1 : Fin 2) * 512 + 1 * q.val = _; omega)

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v29).slice (win0_3.rect t)).set ↔ _
  rw [View.set_slice_whole, Rect.mem_set_unit]
  exact Iff.rfl

/-- Every index of the result is in some store point's block: the point of its row block, its column block and
    the last contraction block. -/
theorem cover (i : S8192x4096.Idx) : ∃ t : Fin cfg0.N, (cfg0.win 3).flush t = true ∧ i ∈ ((cfg0.win 3).blk t).view.set := by
  have hN : cfg0.N = 192 := N_0
  have hi0 : (i 0).val < 8192 := (i 0).isLt
  have hi1 : (i 1).val < 4096 := (i 1).isLt
  refine ⟨⟨(i 0).val / 1024 * 24 + (i 1).val / 512 * 3 + 2, by omega⟩, (flush0_3 _).mpr (by show ((i 0).val / 1024 * 24 + (i 1).val / 512 * 3 + 2) % 3 = 2; omega), ?_⟩
  rw [mem_blk]
  obtain ⟨-, -, -, -, -, -, e0, e1⟩ := idx_facts ⟨(i 0).val / 1024 * 24 + (i 1).val / 512 * 3 + 2, by omega⟩
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 512 ≤ (i 1).val ∧ (i 1).val < win0_3.index _ (1 : Fin 2) * 512 + 512
    rw [e1]; dsimp only; omega

/-- The result array after the run is `GK`. -/
theorem final (c : Dev nD) : (dats m 0 c).arrAt 3 cfg0.N = GK m c :=
  (dats m 0 c).arrAt_eq_of_cover 3 (GK m c) (flushed_eq m c) (cover)

/-- The padding columns carry zeros on all three arrays, so the blocked sum over the padded axis is the
    specification's pre-activation over the 4098 columns. -/
theorem GK_eq (c : Dev nD) :
    GK m c = PnnSpec.G (m ((c : Thread nD τ).loc main_arg0))
      (WpK (m ((c : Thread nD τ).loc main_arg1)) (m ((c : Thread nD τ).loc main_arg2)))
      (WnK (m ((c : Thread nD τ).loc main_arg1)) (m ((c : Thread nD τ).loc main_arg2))) := by
  funext i
  unfold GK gk PnnSpec.G
  refine congrArg PnnSpec.act ?_
  exact PnnSpec.kernel_pre _ _ _ (i 0) (i 1) (Arow m c (i 0)) (Pcol m c (i 1)) (Ncol m c (i 1))
    (fun k => V_v28_apply m c (i 0) k) (fun k => V_v21_apply m c k (i 1)) (fun k => V_v23_apply m c k (i 1))

/-- The run, read: the result array at the specification's function of the input and of the two weight arrays
    the host operations computed; the arguments unchanged. -/
theorem run : θ_run defs (onTc (τ := τ) (main (F := Ideal))) ⟨m, fun _ => 0, ρ⟩ fun r => ∀ c : Dev nD,
      r.2.mem ((c : Thread nD τ).loc main_v29) = PnnSpec.G (m ((c : Thread nD τ).loc main_arg0))
          (WpK (m ((c : Thread nD τ).loc main_arg1)) (m ((c : Thread nD τ).loc main_arg2)))
          (WnK (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans ((final m c).trans (GK_eq m c)),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main m ρ)

end Cert.KernelIdeal.Hand

end
-- ==== Proof.RefIsG.lean ====
/-
  The reference program computes `PnnSpec.G` of its input array and of its two weight arrays.

  The reference augments every input row by a column of ones and a column of zeros (a concatenation along the
  column axis), forms the inverter response of the augmented array, contracts the augmented array against the
  transposed direct weights and the inverted array against the transposed inverted weights over the 4098 columns,
  adds the two products and applies the output response. Read at an index (r, j) this is `PnnSpec.G` at (r, j),
  the two weight arrays entering only through their elements.
-/
import proofs.«125127_j40080634807072_1_alg».proof.Proof.Spec
import proofs.«125127_j40080634807072_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo
open scoped BigOperators

/-- The concatenation of the input, a column of ones and a column of zeros along the column axis, read at row `r`
    and column `k`: the input's element for `k < 4096`, the word of `1.0` at `k = 4096`, the word of `0.0` at
    `k = 4097` — the augmented row. -/
theorem v14_at (x0 : (⟨S8192x4096, .f32⟩ : BufTy).Contents (Elt Ideal)) (r : Fin 8192) (k : Fin 4098) :
    val_main_v14 (F := Ideal) x0 (ix2 r k) = PnnSpec.aug x0 r k := by
  unfold val_main_v14 PnnSpec.aug
  by_cases h : k.val < 4096
  · rw [dif_pos h]
    refine concatenate_apply_piece 1 _ _ (ix2 r k) 0 (by simp) S8192x4096 x0 rfl rfl 0 rfl
      (ix2 r ⟨k.val, h⟩) (fun b hb => ?_) (Nat.zero_add _)
    match b with
    | ⟨0, _⟩ => rfl
    | ⟨1, _⟩ => exact absurd rfl hb
  · rw [dif_neg h]
    by_cases h2 : k.val = 4096
    · rw [if_pos h2]
      have e := concatenate_apply_piece (α := Elt Ideal .f32) 1
        [⟨S8192x4096, x0⟩, ⟨S8192x1, val_main_v12 (F := Ideal)⟩, ⟨S8192x1, val_main_v13 (F := Ideal)⟩]
        concatenates_S8192x4096_S8192x1_S8192x1_S8192x4098_d1 (ix2 r k)
        1 (by simp) S8192x1 (val_main_v12 (F := Ideal)) rfl rfl 4096 rfl
        (ix2 r (0 : Fin 1)) (fun b hb => by
          match b with
          | ⟨0, _⟩ => rfl
          | ⟨1, _⟩ => exact absurd rfl hb) (by show 4096 + 0 = k.val; omega)
      rw [e, val_main_v12_apply, val_main_cst_2_apply, Ideal.ofBits_def]
    · rw [if_neg h2]
      have hk : k.val = 4097 := by have := k.isLt; omega
      have e := concatenate_apply_piece (α := Elt Ideal .f32) 1
        [⟨S8192x4096, x0⟩, ⟨S8192x1, val_main_v12 (F := Ideal)⟩, ⟨S8192x1, val_main_v13 (F := Ideal)⟩]
        concatenates_S8192x4096_S8192x1_S8192x1_S8192x4098_d1 (ix2 r k)
        2 (by simp) S8192x1 (val_main_v13 (F := Ideal)) rfl rfl 4097 rfl
        (ix2 r (0 : Fin 1)) (fun b hb => by
          match b with
          | ⟨0, _⟩ => rfl
          | ⟨1, _⟩ => exact absurd rfl hb) (by show 4097 + 0 = k.val; omega)
      rw [e, val_main_v13_apply, val_main_cst_3_apply, Ideal.ofBits_def]

/-- The inverted array at row `r`, column `k`: the inverter response of the augmented row's element. -/
theorem v23_at (x0 : (⟨S8192x4096, .f32⟩ : BufTy).Contents (Elt Ideal)) (r : Fin 8192) (k : Fin 4098) :
    val_main_v23 (F := Ideal) x0 (ix2 r k) = PnnSpec.inv (PnnSpec.aug x0 r k) := by
  rw [val_main_v23_apply, val_main_v22_apply, val_main_cst_7_apply, val_main_v21_apply, val_main_v20_apply,
    val_main_cst_6_apply, val_main_v19_apply, val_main_v18_apply, val_main_v17_apply, val_main_cst_5_apply,
    val_main_v16_apply, val_main_v15_apply, val_main_cst_4_apply, v14_at]
  simp only [Ideal.ofBits_def, Ideal.subf_def, Ideal.mulf_def, Ideal.addf_def, Ideal.hostUnary_tanh_def, PnnSpec.inv]

/-- One term of the direct product: the augmented element times the direct weight of output `j`, column `k`
    (the transposed weight array read back at its own index). -/
theorem dot32_term (x0 : (⟨S8192x4096, .f32⟩ : BufTy).Contents (Elt Ideal))
    (x1 x2 : (⟨S4096x4098, .f32⟩ : BufTy).Contents (Elt Ideal)) (r : Fin 8192) (j : Fin 4096) (k : Fin 4098) :
    val_main_v14 (F := Ideal) x0 (lidx_main_v32 (ix2 r j) k) * val_main_v31 (F := Ideal) x1 x2 (ridx_main_v32 (ix2 r j) k)
      = PnnSpec.aug x0 r k * val_main_v30 (F := Ideal) x1 x2 (ix2 j k) := by
  have el : lidx_main_v32 (ix2 r j) k = ix2 r k :=
    funext fun a => Fin.ext (by match a with | ⟨0, _⟩ => rfl | ⟨1, _⟩ => rfl)
  have er : idx_main_v31 (ridx_main_v32 (ix2 r j) k) = ix2 j k :=
    funext fun a => Fin.ext (by match a with | ⟨0, _⟩ => rfl | ⟨1, _⟩ => rfl)
  rw [val_main_v31_apply, el, er, v14_at]

/-- One term of the inverted product: the inverter response of the augmented element times the inverted weight of
    output `j`, column `k`. -/
theorem dot35_term (x0 : (⟨S8192x4096, .f32⟩ : BufTy).Contents (Elt Ideal))
    (x1 x2 : (⟨S4096x4098, .f32⟩ : BufTy).Contents (Elt Ideal)) (r : Fin 8192) (j : Fin 4096) (k : Fin 4098) :
    val_main_v23 (F := Ideal) x0 (lidx_main_v35 (ix2 r j) k) * val_main_v34 (F := Ideal) x1 x2 (ridx_main_v35 (ix2 r j) k)
      = PnnSpec.inv (PnnSpec.aug x0 r k) * val_main_v33 (F := Ideal) x1 x2 (ix2 j k) := by
  have el : lidx_main_v35 (ix2 r j) k = ix2 r k :=
    funext fun a => Fin.ext (by match a with | ⟨0, _⟩ => rfl | ⟨1, _⟩ => rfl)
  have er : idx_main_v34 (ridx_main_v35 (ix2 r j) k) = ix2 j k :=
    funext fun a => Fin.ext (by match a with | ⟨0, _⟩ => rfl | ⟨1, _⟩ => rfl)
  rw [val_main_v34_apply, el, er, v23_at]

/-- The sum of the two products at row `r`, output `j` is the pre-activation. -/
theorem v36_at (x0 : (⟨S8192x4096, .f32⟩ : BufTy).Contents (Elt Ideal))
    (x1 x2 : (⟨S4096x4098, .f32⟩ : BufTy).Contents (Elt Ideal)) (r : Fin 8192) (j : Fin 4096) :
    val_main_v36 (F := Ideal) x0 x1 x2 (ix2 r j)
      = PnnSpec.pre x0 (val_main_v30 (F := Ideal) x1 x2) (val_main_v33 (F := Ideal) x1 x2) r j := by
  rw [val_main_v36_apply, val_main_v32_apply, val_main_v35_apply, Ideal.addf_def]
  unfold PnnSpec.pre
  exact congrArg₂ (· + ·) (Finset.sum_congr rfl fun k _ => dot32_term x0 x1 x2 r j k)
    (Finset.sum_congr rfl fun k _ => dot35_term x0 x1 x2 r j k)

/-- **The reference is `G`**: the reference's result array is `PnnSpec.G` of the input array and of the two weight
    arrays (the normalized weights masked by the sign of the parameter, before their transposes). -/
theorem ref_is_G (x0 : (⟨S8192x4096, .f32⟩ : BufTy).Contents (Elt Ideal))
    (x1 x2 : (⟨S4096x4098, .f32⟩ : BufTy).Contents (Elt Ideal)) :
    val_main_v45 (F := Ideal) x0 x1 x2
      = PnnSpec.G x0 (val_main_v30 (F := Ideal) x1 x2) (val_main_v33 (F := Ideal) x1 x2) := by
  funext i
  obtain ⟨r, j, rfl⟩ : ∃ (r : Fin 8192) (j : Fin 4096), i = ix2 r j := ⟨i 0, i 1, eq_ix2 i⟩
  rw [val_main_v45_apply, val_main_v44_apply, val_main_cst_13_apply, val_main_v43_apply, val_main_v42_apply,
    val_main_cst_12_apply, val_main_v41_apply, val_main_v40_apply, val_main_v39_apply, val_main_cst_11_apply,
    val_main_v38_apply, val_main_v37_apply, val_main_cst_10_apply, v36_at]
  simp only [Ideal.ofBits_def, Ideal.subf_def, Ideal.mulf_def, Ideal.addf_def, Ideal.hostUnary_tanh_def,
    PnnSpec.G, PnnSpec.act]

end Cert.ReferenceIdeal.RefValue

end
-- ==== Proof.Finite.lean ====
/-
  Finiteness of the two weight arrays, read back from the precondition.

  The precondition is the conjunction of three "all entries have absolute value strictly below +∞" tests, one per
  argument array, each a reduction by `and` of an elementwise comparison. An extended real whose absolute value
  `max x (-x)` is strictly below `⊤` is neither `⊤` nor `⊥`, hence the image of a real number.
-/
import proofs.«125127_j40080634807072_1_alg».proof.Defs
import proofs.«125127_j40080634807072_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws
import Idealize.ShloMosaic.Lib.WordArith

noncomputable section

namespace Cert.Proof.Finite

open Idealize.ShloMosaic Idealize.SL.Sem Idealize.ShloMosaic.ValueIdx

/-- The rank-0 shape has exactly one index. -/
instance : Subsingleton Cert.Pre_finite_inputs.S_.Idx := ⟨fun a b => funext fun d => d.elim0⟩

/-- The word `0x7F800000` denotes `+∞`. -/
theorem ofBits_inf_f32 : Ideal.ofBits .f32 0x7F800000#32 = (⊤ : EReal) := by
  simp [Ideal.ofBits, Ideal.ieee]

/-- An extended real whose absolute value `max x (-x)` is strictly below `⊤` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One entry of an array passes the test "|x| < +∞" exactly when the comparison word is one; then it is a real. -/
theorem real_of_cmp {s : Shape} (x : FVec Ideal s .f32) (y : FVec Ideal s .f32) (i : s.Idx)
    (hy : y i = Ideal.ofBits .f32 0x7F800000#32)
    (h : cmpf .olt (Host.absf x) y i = 1#1) : ∃ r : ℝ, x i = (r : EReal) := by
  refine real_of_abs_lt_top (x i) ?_
  have h' : Ideal.cmp .olt (max (x i) (-(x i))) (y i) = 1#1 := h
  rw [hy, ofBits_inf_f32] at h'
  have h'' : max (x i) (-(x i)) < (⊤ : EReal) := by
    simpa only [Ideal.cmp, WordArith.ofBool_eq_one_iff, decide_eq_true_eq] using h'
  exact h''

/-- From the precondition: every entry of the second and of the third argument array is a real number. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) := by
  have h0 := congrFun (h c) ValueIdx.ix0
  dsimp only [Cert.Pre_finite_inputs.fn] at h0
  obtain ⟨h01, h2⟩ := IntOp.andi_eq_one.1 h0
  obtain ⟨_, h1⟩ := IntOp.andi_eq_one.1 h01
  refine ⟨fun i => ?_, fun i => ?_⟩
  · have e := Host.reduce_andi_all _ _ _ _ _ h1 i
    exact real_of_cmp _ _ i (broadcastInDim_apply _ _ _ i ValueIdx.ix0 (fun a => a.elim0)) e
  · have e := Host.reduce_andi_all _ _ _ _ _ h2 i
    exact real_of_cmp _ _ i (broadcastInDim_apply _ _ _ i ValueIdx.ix0 (fun a => a.elim0)) e

end Cert.Proof.Finite

end
-- ==== Proof.lean ====
/-
  The certificate of a two-branch weighted layer. Each row of 4096 activations, augmented by a column of ones and a
  column of zeros, drives two matrix products over the 4098 columns — the activations against the non-negative
  part of a row-normalised weight array, and their inverter response against its negative part — whose sum goes
  through an output response. The kernel pads the contraction axis to 4224 = 3 x 1408 columns with zeros, tiles the
  result in 1024 x 512 blocks and accumulates the three contraction blocks of each tile in a scratch buffer, reset
  at the first block and read out after the last; the reference contracts the 4098 columns in one product.
  On the extended reals the two agree: a padding column contributes a product with a zero weight, which is zero
  whatever the other factor; the three blocks' contributions added in order onto zero are the sum over the padded
  axis, because addition of extended reals is associative and commutative; and the reference's weights, which are
  built from `x + (hard - x)` where the kernel's are built from `hard` (the thresholded product of the two weight
  inputs), are the kernel's because `x` is a real when the inputs are finite.
  The three frames: the two kernel programs by running the body once for each case of its two conditions on the
  last grid coordinate and carrying the accumulator in the region's invariant; the reference by its generated run.
-/
import proofs.«125127_j40080634807072_1_alg».proof.Defs
import proofs.«125127_j40080634807072_1_alg».proof.Proof.Gen.Kernel
import proofs.«125127_j40080634807072_1_alg».proof.Proof.Gen.KernelIdeal
import proofs.«125127_j40080634807072_1_alg».proof.Proof.Gen.ReferenceIdeal
import proofs.«125127_j40080634807072_1_alg».proof.Proof.Gen.Pre_finite_inputs
import proofs.«125127_j40080634807072_1_alg».proof.Proof.Gen.ReferenceIdeal.Run
import proofs.«125127_j40080634807072_1_alg».proof.Proof.Gen.ReferenceIdeal.Read
import proofs.«125127_j40080634807072_1_alg».proof.Proof.KBFrame
import proofs.«125127_j40080634807072_1_alg».proof.Proof.KIValue
import proofs.«125127_j40080634807072_1_alg».proof.Proof.RefIsG
import proofs.«125127_j40080634807072_1_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's function of the input and of the weight arrays; the reference's
    weight arrays are the kernel's when the two weight inputs are finite. -/
theorem algebraic : Cert.algebraic_KernelIdeal_ReferenceIdeal := by
  intro m ρ m' ρ' hpre hagree
  refine ⟨fun c => PnnSpec.G (m ((c.tc : Thread Cert.KernelIdeal.nD Cert.KernelIdeal.τ).loc Cert.KernelIdeal.main_arg0))
      (Cert.KernelIdeal.HostRead.WpK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.KernelIdeal.HostRead.WnK (m ((c.tc : Thread Cert.KernelIdeal.nD Cert.KernelIdeal.τ).loc Cert.KernelIdeal.main_arg1)) (m ((c.tc : Thread Cert.KernelIdeal.nD Cert.KernelIdeal.τ).loc Cert.KernelIdeal.main_arg2))),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h2⟩ := Cert.Proof.Finite.finite_of_pre m hpre c
  rw [Cert.ReferenceIdeal.Read.val_main_v45_eq, Cert.ReferenceIdeal.RefValue.ref_is_G, (hagree c).1, (hagree c).2.1, (hagree c).2.2,
    Cert.KernelIdeal.HostRead.WpK_ref _ _ h1 h2, Cert.KernelIdeal.HostRead.WnK_ref _ _ h1 h2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
